-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x3 : Shape := ⟨3, ![4, 4096, 3]⟩
abbrev S_ : Shape := ⟨0, ![]⟩

class Facts : Prop where
  bcast_S_S4x4096x3 : S_.BroadcastsInDim S4x4096x3 (![] : Fin 0 → Fin S4x4096x3.rank)
  reducesTo_S4x4096x3_S_d0_1_2 : S4x4096x3.ReducesTo [0, 1, 2] S_
  h_S_ : 0 < S_.numel

variable [Facts]

def fn {F : FTy → Type} [FloatOps F] (main_arg0 : FVec F S4x4096x3 .f32) (main_arg1 : FVec F S4x4096x3 .f32) : IVec S_ 1 :=
  let main_v0 : FVec F S4x4096x3 .f32 := Host.absf main_arg0
  let main_cst : FVec F S_ .f32 := constant S_ .f32 0x7F800000#32
  let main_v1 : FVec F S4x4096x3 .f32 := broadcastInDim S4x4096x3 ![] bcast_S_S4x4096x3 main_cst
  let main_v2 : IVec S4x4096x3 1 := cmpf .olt main_v0 main_v1
  let main_c : IVec S_ 1 := constantI S_ 1 1#1
  let main_v3 : IVec S_ 1 := (fun x v => Host.reduce IntOp.andi x v reducesTo_S4x4096x3_S_d0_1_2 h_S_) main_v2 main_c
  let main_v4 : FVec F S4x4096x3 .f32 := Host.absf main_arg1
  let main_cst_0 : FVec F S_ .f32 := constant S_ .f32 0x7F800000#32
  let main_v5 : FVec F S4x4096x3 .f32 := broadcastInDim S4x4096x3 ![] bcast_S_S4x4096x3 main_cst_0
  let main_v6 : IVec S4x4096x3 1 := cmpf .olt main_v4 main_v5
  let main_c_1 : IVec S_ 1 := constantI S_ 1 1#1
  let main_v7 : IVec S_ 1 := (fun x v => Host.reduce IntOp.andi x v reducesTo_S4x4096x3_S_d0_1_2 h_S_) main_v6 main_c_1
  let main_v8 : IVec S_ 1 := andi main_v3 main_v7
  main_v8
-- ==== Kernel.lean ====
abbrev S4x4096x3 : Shape := ⟨3, ![4, 4096, 3]⟩
abbrev S_ : Shape := ⟨0, ![]⟩
abbrev S4x4096 : Shape := ⟨2, ![4, 4096]⟩
abbrev S4x4096x1 : Shape := ⟨3, ![4, 4096, 1]⟩
abbrev S4x3x4096 : Shape := ⟨3, ![4, 3, 4096]⟩
abbrev S4x1x4096 : Shape := ⟨3, ![4, 1, 4096]⟩
abbrev S4x1x1 : Shape := ⟨3, ![4, 1, 1]⟩
abbrev S1x2048x3 : Shape := ⟨3, ![1, 2048, 3]⟩
abbrev S1x2048x1 : Shape := ⟨3, ![1, 2048, 1]⟩
abbrev S1x3x4096 : Shape := ⟨3, ![1, 3, 4096]⟩
abbrev S1x1x4096 : Shape := ⟨3, ![1, 1, 4096]⟩
abbrev S1x1x1 : Shape := ⟨3, ![1, 1, 1]⟩
abbrev S1x4096 : Shape := ⟨2, ![1, 4096]⟩
abbrev S2048x3 : Shape := ⟨2, ![2048, 3]⟩
abbrev S2048x1 : Shape := ⟨2, ![2048, 1]⟩
abbrev S3x4096 : Shape := ⟨2, ![3, 4096]⟩
abbrev S2048x4096 : Shape := ⟨2, ![2048, 4096]⟩
abbrev S2048 : Shape := ⟨1, ![2048]⟩
abbrev S1 : Shape := ⟨1, ![1]⟩
abbrev S1x1 : Shape := ⟨2, ![1, 1]⟩
abbrev S4096 : Shape := ⟨1, ![4096]⟩

abbrev nBuf : Space → Nat
  | .hbm => 25
  | .vmem => 13
  | .smem => 0
  | _ => 0

abbrev bufTy : (tb : Table) → Fin (tcTables nBuf tb) → BufTy
  | .hbm, ⟨0, _⟩ => ⟨S4x4096x3, .f32⟩
  | .hbm, ⟨1, _⟩ => ⟨S4x4096x3, .f32⟩
  | .hbm, ⟨2, _⟩ => ⟨S_, .f32⟩
  | .hbm, ⟨3, _⟩ => ⟨S4x4096x3, .f32⟩
  | .hbm, ⟨4, _⟩ => ⟨S4x4096x3, .f32⟩
  | .hbm, ⟨5, _⟩ => ⟨S4x4096x3, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S4x3x4096, .f32⟩
  | .hbm, ⟨10, _⟩ => ⟨S4x4096x3, .f32⟩
  | .hbm, ⟨11, _⟩ => ⟨S_, .f32⟩
  | .hbm, ⟨12, _⟩ => ⟨S4x4096, .f32⟩
  | .hbm, ⟨13, _⟩ => ⟨S4x1x4096, .f32⟩
  | .hbm, ⟨14, _⟩ => ⟨S4x1x1, .f32⟩
  | .hbm, ⟨15, _⟩ => ⟨S4x1x1, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .local _ .vmem, ⟨0, _⟩ => ⟨S1x2048x3, .f32⟩
  | .local _ .vmem, ⟨1, _⟩ => ⟨S1x2048x3, .f32⟩
  | .local _ .vmem, ⟨2, _⟩ => ⟨S1x2048x1, .f32⟩
  | .local _ .vmem, ⟨3, _⟩ => ⟨S1x2048x1, .f32⟩
  | .local _ .vmem, ⟨4, _⟩ => ⟨S1x3x4096, .f32⟩
  | .local _ .vmem, ⟨5, _⟩ => ⟨S1x3x4096, .f32⟩
  | .local _ .vmem, ⟨6, _⟩ => ⟨S1x1x4096, .f32⟩
  | .local _ .vmem, ⟨7, _⟩ => ⟨S1x1x4096, .f32⟩
  | .local _ .vmem, ⟨8, _⟩ => ⟨S1x1x1, .f32⟩
  | .local _ .vmem, ⟨9, _⟩ => ⟨S1x1x1, .f32⟩
  | .local _ .vmem, ⟨10, _⟩ => ⟨S1x1x1, .f32⟩
  | .local _ .vmem, ⟨11, _⟩ => ⟨S1x1x1, .f32⟩
  | .local _ .vmem, ⟨12, _⟩ => ⟨S1x4096, .f32⟩
  | _, _ => ⟨S4x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_cst_0 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_cst_1 : Ref sig .tc := ⟨.hbm, 11, rfl⟩
abbrev main_call0_v7 : Ref sig .tc := ⟨.hbm, 12, rfl⟩
abbrev main_call0_v8 : Ref sig .tc := ⟨.hbm, 13, rfl⟩
abbrev main_call0_v9_0 : Ref sig .tc := ⟨.hbm, 14, rfl⟩
abbrev main_call0_v9_1 : Ref sig .tc := ⟨.hbm, 15, rfl⟩
abbrev main_call0_cst_2 : Ref sig .tc := ⟨.hbm, 16, rfl⟩
abbrev main_call0_v10 : Ref sig .tc := ⟨.hbm, 17, rfl⟩
abbrev main_call0_cst_3 : Ref sig .tc := ⟨.hbm, 18, rfl⟩
abbrev main_call0_v11 : Ref sig .tc := ⟨.hbm, 19, rfl⟩
abbrev main_call0_cst_4 : Ref sig .tc := ⟨.hbm, 20, rfl⟩
abbrev main_call0_v12 : Ref sig .tc := ⟨.hbm, 21, rfl⟩
abbrev main_call0_cst_5 : Ref sig .tc := ⟨.hbm, 22, rfl⟩
abbrev main_call0_v13 : Ref sig .tc := ⟨.hbm, 23, rfl⟩
abbrev main_v0 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 2], ![false, false]⟩

def k0_cond1 (i : grid0.Coords) : BitVec 1 :=
  let arg1 : BitVec 32 := BitVec.ofNat 32 (i 1).val
  let c0_i32 : BitVec 32 := 0#32
  let v22 : BitVec 1 := Scalar.cmpi .eq arg1 c0_i32
  let v23 : BitVec 32 := Scalar.extui v22
  let c0_i32_14 : BitVec 32 := 0#32
  let v24 : BitVec 1 := Scalar.cmpi .ne v23 c0_i32_14
  v24

def k0_cond2 (i : grid0.Coords) : BitVec 1 :=
  let arg1 : BitVec 32 := BitVec.ofNat 32 (i 1).val
  let c0_i32_15 : BitVec 32 := 0#32
  let v25 : BitVec 1 := Scalar.cmpi .sgt arg1 c0_i32_15
  let v26 : BitVec 32 := Scalar.extui v25
  let c0_i32_16 : BitVec 32 := 0#32
  let v27 : BitVec 1 := Scalar.cmpi .ne v26 c0_i32_16
  v27

def k0_cond3 (i : grid0.Coords) : BitVec 1 :=
  let arg1 : BitVec 32 := BitVec.ofNat 32 (i 1).val
  let c1_i32 : BitVec 32 := 1#32
  let v28 : BitVec 1 := Scalar.cmpi .eq arg1 c1_i32
  let v29 : BitVec 32 := Scalar.extui v28
  let c0_i32_17 : BitVec 32 := 0#32
  let v30 : BitVec 1 := Scalar.cmpi .ne v29 c0_i32_17
  v30

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x3x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  bcast_S_S4x4096x3 : S_.BroadcastsInDim S4x4096x3 (![] : Fin 0 → Fin S4x4096x3.rank)
  reducesTo_S4x4096x3_S4x4096_d2 : S4x4096x3.ReducesTo [2] S4x4096
  h_S_ : 0 < S_.numel
  bcast_S4x4096_S4x4096x1_0_1 : S4x4096.BroadcastsInDim S4x4096x1 (![0, 1] : Fin 2 → Fin S4x4096x1.rank)
  transposes_S4x4096x3_S4x3x4096_0_2_1 : S4x4096x3.Transposes [0, 2, 1] S4x3x4096
  bcast_S4x4096_S4x1x4096_0_2 : S4x4096.BroadcastsInDim S4x1x4096 (![0, 2] : Fin 2 → Fin S4x1x4096.rank)
  reducesTo_S4x1x1_S_d0_1_2 : S4x1x1.ReducesTo [0, 1, 2] S_
  inb_S1x2048x3_S1x2048x3_0_0_0 : ∀ a, (![0, 0, 0] : Fin 3 → Nat) a + S1x2048x3.size a ≤ S1x2048x3.size a
  h_S1x2048x3 : 0 < S1x2048x3.numel
  shapeCasts_S1x2048x3_S2048x3 : S1x2048x3.ShapeCasts S2048x3
  inb_S1x2048x1_S1x2048x1_0_0_0 : ∀ a, (![0, 0, 0] : Fin 3 → Nat) a + S1x2048x1.size a ≤ S1x2048x1.size a
  h_S1x2048x1 : 0 < S1x2048x1.numel
  shapeCasts_S1x2048x1_S2048x1 : S1x2048x1.ShapeCasts S2048x1
  inb_S1x3x4096_S1x3x4096_0_0_0 : ∀ a, (![0, 0, 0] : Fin 3 → Nat) a + S1x3x4096.size a ≤ S1x3x4096.size a
  h_S1x3x4096 : 0 < S1x3x4096.numel
  shapeCasts_S1x3x4096_S3x4096 : S1x3x4096.ShapeCasts S3x4096
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S1x4096 : S1x1x4096.ShapeCasts S1x4096
  broadcasts_S2048x1_S2048x4096 : S2048x1.Broadcasts S2048x4096
  broadcasts_S1x4096_S2048x4096 : S1x4096.Broadcasts S2048x4096
  reduces_S2048x4096_S2048 : S2048x4096.Reduces [1] S2048
  shapeCasts_S2048_S2048x1 : S2048.ShapeCasts S2048x1
  shapeCasts_S2048x1_S1x2048x1 : S2048x1.ShapeCasts S1x2048x1
  reduces_S1x2048x1_S1 : S1x2048x1.Reduces [1, 2] S1
  shapeCasts_S1_S1x1x1 : S1.ShapeCasts S1x1x1
  inpos_S1x1x1_p0_0_0 : ∀ a, (![0, 0, 0] : Fin 3 → Nat) a < S1x1x1.size a
  reduces_S2048x4096_S4096 : S2048x4096.Reduces [0] S4096
  shapeCasts_S4096_S1x4096 : S4096.ShapeCasts S1x4096
  shapeCasts_S1x1_S1x1x1 : S1x1.ShapeCasts S1x1x1
  inb_S1x1x1_S1x1x1_0_0_0 : ∀ a, (![0, 0, 0] : Fin 3 → Nat) a + S1x1x1.size a ≤ S1x1x1.size a
  h_S1x1x1 : 0 < S1x1x1.numel
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  shapeCasts_S1x1x1_S1x1x1 : S1x1x1.ShapeCasts S1x1x1
  shapeCasts_S1x4096_S1x1x4096 : S1x4096.ShapeCasts S1x1x4096
  reduces_S1x1x4096_S1 : S1x1x4096.Reduces [1, 2] S1
  dot_S2048x3_S3x4096_S2048x4096_1_0_0_1_n_n_wf : DotDims.WF S2048x3 S3x4096 S2048x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x3.size a ≤ S4x4096x3.size a
  hwx0_0 : ∀ i : grid0.Coords, EltTy.bits .f32 = 32 ∨ (Rect.block (s := S4x4096x3) S1x2048x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x1.size a ≤ S4x4096x1.size a
  hwx0_1 : ∀ i : grid0.Coords, EltTy.bits .f32 = 32 ∨ (Rect.block (s := S4x4096x1) S1x2048x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x3x4096.size a ≤ S4x3x4096.size a
  hwx0_2 : ∀ i : grid0.Coords, EltTy.bits .f32 = 32 ∨ (Rect.block (s := S4x3x4096) S1x3x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x4096.size a ≤ S4x1x4096.size a
  hwx0_3 : ∀ i : grid0.Coords, EltTy.bits .f32 = 32 ∨ (Rect.block (s := S4x1x4096) S1x1x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1.size a ≤ S4x1x1.size a
  hwx0_4 : ∀ i : grid0.Coords, EltTy.bits .f32 = 32 ∨ (Rect.block (s := S4x1x1) S1x1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x1.size a ≤ S4x1x1.size a
  hwx0_5 : ∀ i : grid0.Coords, EltTy.bits .f32 = 32 ∨ (Rect.block (s := S4x1x1) S1x1x1.size (cc0_transform_5 i) (hinb0_5 i)).WholeWords (EltTy.packing .f32)

variable [Facts₀]

def dot_S2048x3_S3x4096_S2048x4096_1_0_0_1_n_n : DotDims S2048x3 S3x4096 S2048x4096 where
  lhsContracting := [1]
  rhsContracting := [0]
  lhsNonContracting := [0]
  rhsNonContracting := [1]
  lhsBatch := []
  rhsBatch := []
  wf := dot_S2048x3_S3x4096_S2048x4096_1_0_0_1_n_n_wf

abbrev win0_0 : Pipeline.Window sig grid0 :=
  Pipeline.Window.ofSpec (Memref.whole main_call0_v1) S1x2048x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v4) S1x2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v5) S1x3x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v8) S1x1x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_call0_v9_0) S1x1x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_call0_v9_1) S1x1x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond1 i == 1#1) && !(k0_cond2 i == 1#1) | 5 => fun i => !(k0_cond3 i == 1#1) | ⟨_ + 6, h⟩ => absurd h (Nat.not_lt.2 (Nat.le_add_left _ _))

class Facts : Prop extends Facts₀ where

variable [Facts]
-- ==== ReferenceIdeal.lean ====
abbrev S4x4096x3 : Shape := ⟨3, ![4, 4096, 3]⟩
abbrev S4x4096x1x3 : Shape := ⟨4, ![4, 4096, 1, 3]⟩
abbrev S4x1x4096x3 : Shape := ⟨4, ![4, 1, 4096, 3]⟩
abbrev S4x4096x4096x3 : Shape := ⟨4, ![4, 4096, 4096, 3]⟩
abbrev S_ : Shape := ⟨0, ![]⟩
abbrev S4x4096x4096 : Shape := ⟨3, ![4, 4096, 4096]⟩
abbrev S4x4096 : Shape := ⟨2, ![4, 4096]⟩

abbrev nBuf : Space → Nat
  | .hbm => 23
  | .vmem => 0
  | .smem => 0
  | _ => 0

abbrev bufTy : (tb : Table) → Fin (tcTables nBuf tb) → BufTy
  | .hbm, ⟨0, _⟩ => ⟨S4x4096x3, .f32⟩
  | .hbm, ⟨1, _⟩ => ⟨S4x4096x3, .f32⟩
  | .hbm, ⟨2, _⟩ => ⟨S4x4096x1x3, .f32⟩
  | .hbm, ⟨3, _⟩ => ⟨S4x1x4096x3, .f32⟩
  | .hbm, ⟨4, _⟩ => ⟨S4x4096x4096x3, .f32⟩
  | .hbm, ⟨5, _⟩ => ⟨S4x4096x4096x3, .f32⟩
  | .hbm, ⟨6, _⟩ => ⟨S4x4096x4096x3, .f32⟩
  | .hbm, ⟨7, _⟩ => ⟨S4x4096x4096x3, .f32⟩
  | .hbm, ⟨8, _⟩ => ⟨S_, .f32⟩
  | .hbm, ⟨9, _⟩ => ⟨S4x4096x4096, .f32⟩
  | .hbm, ⟨10, _⟩ => ⟨S_, .f32⟩
  | .hbm, ⟨11, _⟩ => ⟨S4x4096, .f32⟩
  | .hbm, ⟨12, _⟩ => ⟨S_, .f32⟩
  | .hbm, ⟨13, _⟩ => ⟨S4x4096, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | _, _ => ⟨S4x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev main_cst_4 : Ref sig .tc := ⟨.hbm, 18, rfl⟩
abbrev main_v11 : Ref sig .tc := ⟨.hbm, 19, rfl⟩
abbrev main_cst_5 : Ref sig .tc := ⟨.hbm, 20, rfl⟩
abbrev main_v12 : Ref sig .tc := ⟨.hbm, 21, rfl⟩
abbrev main_v13 : Ref sig .tc := ⟨.hbm, 22, rfl⟩

abbrev nD : Nat := 1
abbrev τ : Topo := Topo.v7x

variable {F : FTy → Type} [FloatOps F]

class Facts₀ : Prop where
  bcast_S4x4096x3_S4x4096x1x3_0_1_3 : S4x4096x3.BroadcastsInDim S4x4096x1x3 (![0, 1, 3] : Fin 3 → Fin S4x4096x1x3.rank)
  bcast_S4x4096x3_S4x1x4096x3_0_2_3 : S4x4096x3.BroadcastsInDim S4x1x4096x3 (![0, 2, 3] : Fin 3 → Fin S4x1x4096x3.rank)
  bcast_S4x4096x1x3_S4x4096x4096x3_0_1_2_3 : S4x4096x1x3.BroadcastsInDim S4x4096x4096x3 (![0, 1, 2, 3] : Fin 4 → Fin S4x4096x4096x3.rank)
  bcast_S4x1x4096x3_S4x4096x4096x3_0_1_2_3 : S4x1x4096x3.BroadcastsInDim S4x4096x4096x3 (![0, 1, 2, 3] : Fin 4 → Fin S4x4096x4096x3.rank)
  reducesTo_S4x4096x4096x3_S4x4096x4096_d3 : S4x4096x4096x3.ReducesTo [3] S4x4096x4096
  h_S_ : 0 < S_.numel
  reducesTo_S4x4096x4096_S4x4096_d2 : S4x4096x4096.ReducesTo [2] S4x4096
  reducesTo_S4x4096x4096_S4x4096_d1 : S4x4096x4096.ReducesTo [1] S4x4096
  reducesTo_S4x4096_S_d0_1 : S4x4096.ReducesTo [0, 1] S_

variable [Facts₀]

class Facts : Prop extends Facts₀ where

variable [Facts]
-- ==== Proof.WordRuns.lean ====
/-
  The body of the chamfer kernel, run once per control case on any whole staging buffers.

  A grid point (b, i) is in case A when i = 0 (the first half of the rows of cloud b) and in case B when i = 1 (the
  second half).  In case A the body overwrites the running row-sum cell and the running column minima with this half's
  values and leaves the second output cell alone.  In case B it adds this half's row sum to the cell, joins this half's
  column minima to the running ones by a minimum, and stores the sum of the joined minima in the second output cell.
  Each run records the stores it made into each buffer, last first.
-/
import proofs.«149844_g4922032521243_cont_8to1_c_580_16_alg».proof.Proof.Gen.Kernel.Frame
import proofs.«149844_g4922032521243_cont_8to1_c_580_16_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The three conditions, over the grid -/

/-- "This is the first half" (i = 0). -/
abbrev isFirst (i : grid0.Coords) : Prop := k0_cond1 i = 1#1
/-- "This is a later half" (i > 0). -/
abbrev isLater (i : grid0.Coords) : Prop := k0_cond2 i = 1#1
/-- "This is the last half" (i = 1). -/
abbrev isLast (i : grid0.Coords) : Prop := k0_cond3 i = 1#1

/-- Points are numbered 2b + i: the first half is at the even points, -/
theorem isFirst_iff : ∀ t : Fin cfg0.N, isFirst (grid0.coords t) ↔ t.val % 2 = 0 :=
  (by decide +kernel : ∀ t : Fin grid0.N, isFirst (grid0.coords t) ↔ t.val % 2 = 0)
/-- the later halves at the odd ones, -/
theorem isLater_iff : ∀ t : Fin cfg0.N, isLater (grid0.coords t) ↔ t.val % 2 = 1 :=
  (by decide +kernel : ∀ t : Fin grid0.N, isLater (grid0.coords t) ↔ t.val % 2 = 1)
/-- and the last half too. -/
theorem isLast_iff : ∀ t : Fin cfg0.N, isLast (grid0.coords t) ↔ t.val % 2 = 1 :=
  (by decide +kernel : ∀ t : Fin grid0.N, isLast (grid0.coords t) ↔ t.val % 2 = 1)

/-! ## The body's runs -/

set_option maxHeartbeats 1000000 in
/-- Case A (first half).  From the four input blocks at `x0 … x3` and the first output cell and the scratch row at
    anything, the body ends with the inputs as they were and with the recorded stores written into the first cell
    (`.1`) and the scratch row (`.2`); the second output cell is not touched. -/
noncomputable def runA (c : Dev nD) (i : grid0.Coords) (arg2 : Memref sig .tc .vmem S1x2048x3 .f32) (harg2 : arg2.IsWhole) (arg3 : Memref sig .tc .vmem S1x2048x1 .f32) (harg3 : arg3.IsWhole) (arg4 : Memref sig .tc .vmem S1x3x4096 .f32) (harg4 : arg4.IsWhole) (arg5 : Memref sig .tc .vmem S1x1x4096 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x4096 .f32) (harg8 : arg8.IsWhole) (hc0 : isFirst i) (hc1 : ¬isLater i) (hc2 : ¬isLast i)
    (x0 : Vec F S1x2048x3 .f32) (x1 : Vec F S1x2048x1 .f32) (x2 : Vec F S1x3x4096 .f32) (x3 : Vec F S1x1x4096 .f32) :
    { L : List (View.Piece (Elt F) S1x1x1 .f32) × List (View.Piece (Elt F) S1x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L.1) ∗ (∃ f, arg8.view.loc (c : Thread nD τ) ↦[arg8.view.set]{fullShare} arg8.view.writes (Elt F) f L.2)) -∗ K ⟨⟩))
          ⊢ wp frame (wpE (defs₀ (F := F)) Variants.none c none) E (cc0__chamfer_block_kernel i arg2 harg2 arg3 harg3 arg4 harg4 arg5 harg5 arg6 harg6 arg7 harg7 arg8 harg8) K } := by
  refine ⟨(?_, ?_), fun E K => ?run⟩
  case run =>
    simp only [cc0__chamfer_block_kernel_eq_skeleton]; unfold cc0__chamfer_block_kernel_skel
    unfold owns
    iintro ⟨⟨%f0, %hf0, H0⟩, ⟨%f1, %hf1, H1⟩, ⟨%f2, %hf2, H2⟩, ⟨%f3, %hf3, H3⟩, ⟨%d4, %f4, -, H4⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexists _; iexact HS

set_option maxHeartbeats 1000000 in
/-- Case B (second half).  From the four input blocks at `x0 … x3`, the first output cell at `xo` and the scratch
    row at `xs` (what the first half left) and the second output cell at anything, the body ends with the inputs as
    they were and with the recorded stores written into the first cell (`.1`), the second cell (`.2.1`) and the
    scratch row (`.2.2`). -/
noncomputable def runB (c : Dev nD) (i : grid0.Coords) (arg2 : Memref sig .tc .vmem S1x2048x3 .f32) (harg2 : arg2.IsWhole) (arg3 : Memref sig .tc .vmem S1x2048x1 .f32) (harg3 : arg3.IsWhole) (arg4 : Memref sig .tc .vmem S1x3x4096 .f32) (harg4 : arg4.IsWhole) (arg5 : Memref sig .tc .vmem S1x1x4096 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x4096 .f32) (harg8 : arg8.IsWhole) (hc0 : ¬isFirst i) (hc1 : isLater i) (hc2 : isLast i)
    (x0 : Vec F S1x2048x3 .f32) (x1 : Vec F S1x2048x1 .f32) (x2 : Vec F S1x3x4096 .f32) (x3 : Vec F S1x1x4096 .f32) (xo : Vec F S1x1x1 .f32) (xs : Vec F S1x4096 .f32) :
    { L : List (View.Piece (Elt F) S1x1x1 .f32) × List (View.Piece (Elt F) S1x1x1 .f32) × List (View.Piece (Elt F) S1x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ (∃ d, owns (c : Thread nD τ) arg7 fullShare d) ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L.1) ∗ (∃ f, arg7.view.loc (c : Thread nD τ) ↦[arg7.view.set]{fullShare} arg7.view.writes (Elt F) f L.2.1) ∗ (∃ f, arg8.view.loc (c : Thread nD τ) ↦[arg8.view.set]{fullShare} arg8.view.writes (Elt F) f L.2.2)) -∗ K ⟨⟩))
          ⊢ wp frame (wpE (defs₀ (F := F)) Variants.none c none) E (cc0__chamfer_block_kernel i arg2 harg2 arg3 harg3 arg4 harg4 arg5 harg5 arg6 harg6 arg7 harg7 arg8 harg8) K } := by
  refine ⟨(?_, ?_, ?_), fun E K => ?run⟩
  case run =>
    simp only [cc0__chamfer_block_kernel_eq_skeleton]; unfold cc0__chamfer_block_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    isplitl [H5]
    · iexists _; iexact H5
    iexists _; iexact HS

end Cert.Kernel.Body

end
-- ==== Proof.WordPieces.lean ====
/-
  What each run of the chamfer kernel's body leaves in the buffers it stores into, as a function of what it loaded.

  Every store of the body goes through a whole buffer, so after a run each stored buffer holds the payload of the last
  store into it: the first-half case leaves this half's row sum in the first output cell and this half's column minima
  in the scratch row; the second-half case leaves the running sum plus this half's, the joined column minima, and in
  the second output cell the sum of the joined minima (which it reads back from the scratch row it has just stored).
-/
import Idealize.ShloMosaic.Lib.Pipeline.Value
import proofs.«149844_g4922032521243_cont_8to1_c_580_16_alg».proof.Proof.WordRuns

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem zero3 : (![0, 0, 0] : Fin 3 → ℕ) = fun _ => 0 := by funext a; fin_cases a <;> rfl
theorem zero2 : (![0, 0] : Fin 2 → ℕ) = fun _ => 0 := by funext a; fin_cases a <;> rfl

section caseA
variable (c : Dev nD) (i : grid0.Coords) (arg2 : Memref sig .tc .vmem S1x2048x3 .f32) (harg2 : arg2.IsWhole) (arg3 : Memref sig .tc .vmem S1x2048x1 .f32) (harg3 : arg3.IsWhole) (arg4 : Memref sig .tc .vmem S1x3x4096 .f32) (harg4 : arg4.IsWhole) (arg5 : Memref sig .tc .vmem S1x1x4096 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x4096 .f32) (harg8 : arg8.IsWhole) (hc0 : isFirst i) (hc1 : ¬isLater i) (hc2 : ¬isLast i)
    (x0 : Vec F S1x2048x3 .f32) (x1 : Vec F S1x2048x1 .f32) (x2 : Vec F S1x3x4096 .f32) (x3 : Vec F S1x1x4096 .f32)

/-- The first half's store into the first output cell covers it. -/
theorem coverA_cell (y : S1x1x1.Idx) : ∃ pc ∈ (runA c i arg2 harg2 arg3 harg3 arg4 harg4 arg5 harg5 arg6 harg6 arg7 harg7 arg8 harg8 hc0 hc1 hc2 x0 x1 x2 x3).1.1, y ∈ pc.1.set :=
  View.cover_of_tiledL (runA c i arg2 harg2 arg3 harg3 arg4 harg4 arg5 harg5 arg6 harg6 arg7 harg7 arg8 harg8 hc0 hc1 hc2 x0 x1 x2 x3).1.1 S1x1x1.size (by sl_kernel_rfl) y
/-- The first half's store into the scratch row covers it. -/
theorem coverA_row (y : S1x4096.Idx) : ∃ pc ∈ (runA c i arg2 harg2 arg3 harg3 arg4 harg4 arg5 harg5 arg6 harg6 arg7 harg7 arg8 harg8 hc0 hc1 hc2 x0 x1 x2 x3).1.2, y ∈ pc.1.set :=
  View.cover_of_tiledL (runA c i arg2 harg2 arg3 harg3 arg4 harg4 arg5 harg5 arg6 harg6 arg7 harg7 arg8 harg8 hc0 hc1 hc2 x0 x1 x2 x3).1.2 S1x4096.size (by sl_kernel_rfl) y

/-- After the first half the first output cell holds this half's row sum. -/
theorem cellA_eq : View.canon (runA c i arg2 harg2 arg3 harg3 arg4 harg4 arg5 harg5 arg6 harg6 arg7 harg7 arg8 harg8 hc0 hc1 hc2 x0 x1 x2 x3).1.1 = k0_pay4 x0 x1 x2 x3 := by
  unfold runA; dsimp only; sl_unfold_words
  rw [View.canon_unit_zero zero3]
  simp only [View.readAt_eq_ld, harg2.read_unread, harg3.read_unread, harg4.read_unread, harg5.read_unread,
    View.ld_unit_zero (S := S1x2048x3) zero3, View.ld_unit_zero (S := S1x2048x1) zero3, View.ld_unit_zero (S := S1x3x4096) zero3,
    View.ld_unit_zero (S := S1x1x4096) zero3]

/-- After the first half the scratch row holds this half's column minima. -/
theorem rowA_eq : View.canon (runA c i arg2 harg2 arg3 harg3 arg4 harg4 arg5 harg5 arg6 harg6 arg7 harg7 arg8 harg8 hc0 hc1 hc2 x0 x1 x2 x3).1.2 = k0_pay5 x0 x1 x2 x3 := by
  unfold runA; dsimp only; sl_unfold_words
  rw [View.canon_unit_zero zero2]
  simp only [View.readAt_eq_ld, harg2.read_unread, harg3.read_unread, harg4.read_unread, harg5.read_unread,
    View.ld_unit_zero (S := S1x2048x3) zero3, View.ld_unit_zero (S := S1x2048x1) zero3, View.ld_unit_zero (S := S1x3x4096) zero3,
    View.ld_unit_zero (S := S1x1x4096) zero3]
end caseA

section caseB
variable (c : Dev nD) (i : grid0.Coords) (arg2 : Memref sig .tc .vmem S1x2048x3 .f32) (harg2 : arg2.IsWhole) (arg3 : Memref sig .tc .vmem S1x2048x1 .f32) (harg3 : arg3.IsWhole) (arg4 : Memref sig .tc .vmem S1x3x4096 .f32) (harg4 : arg4.IsWhole) (arg5 : Memref sig .tc .vmem S1x1x4096 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x4096 .f32) (harg8 : arg8.IsWhole) (hc0 : ¬isFirst i) (hc1 : isLater i) (hc2 : isLast i)
    (x0 : Vec F S1x2048x3 .f32) (x1 : Vec F S1x2048x1 .f32) (x2 : Vec F S1x3x4096 .f32) (x3 : Vec F S1x1x4096 .f32) (xo : Vec F S1x1x1 .f32) (xs : Vec F S1x4096 .f32)

/-- The second half's store into the first output cell covers it. -/
theorem coverB_cell (y : S1x1x1.Idx) : ∃ pc ∈ (runB c i arg2 harg2 arg3 harg3 arg4 harg4 arg5 harg5 arg6 harg6 arg7 harg7 arg8 harg8 hc0 hc1 hc2 x0 x1 x2 x3 xo xs).1.1, y ∈ pc.1.set :=
  View.cover_of_tiledL (runB c i arg2 harg2 arg3 harg3 arg4 harg4 arg5 harg5 arg6 harg6 arg7 harg7 arg8 harg8 hc0 hc1 hc2 x0 x1 x2 x3 xo xs).1.1 S1x1x1.size (by sl_kernel_rfl) y
/-- The second half's store into the second output cell covers it. -/
theorem coverB_cell2 (y : S1x1x1.Idx) : ∃ pc ∈ (runB c i arg2 harg2 arg3 harg3 arg4 harg4 arg5 harg5 arg6 harg6 arg7 harg7 arg8 harg8 hc0 hc1 hc2 x0 x1 x2 x3 xo xs).1.2.1, y ∈ pc.1.set :=
  View.cover_of_tiledL (runB c i arg2 harg2 arg3 harg3 arg4 harg4 arg5 harg5 arg6 harg6 arg7 harg7 arg8 harg8 hc0 hc1 hc2 x0 x1 x2 x3 xo xs).1.2.1 S1x1x1.size (by sl_kernel_rfl) y
/-- The second half's store into the scratch row covers it. -/
theorem coverB_row (y : S1x4096.Idx) : ∃ pc ∈ (runB c i arg2 harg2 arg3 harg3 arg4 harg4 arg5 harg5 arg6 harg6 arg7 harg7 arg8 harg8 hc0 hc1 hc2 x0 x1 x2 x3 xo xs).1.2.2, y ∈ pc.1.set :=
  View.cover_of_tiledL (runB c i arg2 harg2 arg3 harg3 arg4 harg4 arg5 harg5 arg6 harg6 arg7 harg7 arg8 harg8 hc0 hc1 hc2 x0 x1 x2 x3 xo xs).1.2.2 S1x4096.size (by sl_kernel_rfl) y

/-- After the second half the first output cell holds what it held plus this half's row sum. -/
theorem cellB_eq : View.canon (runB c i arg2 harg2 arg3 harg3 arg4 harg4 arg5 harg5 arg6 harg6 arg7 harg7 arg8 harg8 hc0 hc1 hc2 x0 x1 x2 x3 xo xs).1.1 = k0_pay6 x0 x1 x2 x3 xo := by
  unfold runB; dsimp only; sl_unfold_words
  rw [View.canon_unit_zero zero3]
  simp only [View.readAt_eq_ld, harg2.read_unread, harg3.read_unread, harg4.read_unread, harg5.read_unread, harg6.read_unread,
    View.ld_unit_zero (S := S1x2048x3) zero3, View.ld_unit_zero (S := S1x2048x1) zero3, View.ld_unit_zero (S := S1x3x4096) zero3,
    View.ld_unit_zero (S := S1x1x4096) zero3, View.ld_unit_zero (S := S1x1x1) zero3]

/-- After the second half the scratch row holds the minimum of what it held and this half's column minima. -/
theorem rowB_eq : View.canon (runB c i arg2 harg2 arg3 harg3 arg4 harg4 arg5 harg5 arg6 harg6 arg7 harg7 arg8 harg8 hc0 hc1 hc2 x0 x1 x2 x3 xo xs).1.2.2 = k0_pay7 x0 x1 x2 x3 xs := by
  unfold runB; dsimp only; sl_unfold_words
  rw [View.canon_unit_zero zero2]
  simp only [View.readAt_eq_ld, harg2.read_unread, harg3.read_unread, harg4.read_unread, harg5.read_unread, harg8.read_unread,
    View.ld_unit_zero (S := S1x2048x3) zero3, View.ld_unit_zero (S := S1x2048x1) zero3, View.ld_unit_zero (S := S1x3x4096) zero3,
    View.ld_unit_zero (S := S1x1x4096) zero3, View.ld_unit_zero (S := S1x4096) zero2]

/-- After the second half the second output cell holds the sum of the joined column minima. -/
theorem cell2B_eq : View.canon (runB c i arg2 harg2 arg3 harg3 arg4 harg4 arg5 harg5 arg6 harg6 arg7 harg7 arg8 harg8 hc0 hc1 hc2 x0 x1 x2 x3 xo xs).1.2.1 = k0_pay8 (k0_pay7 x0 x1 x2 x3 xs) := by
  unfold runB; dsimp only; sl_unfold_words
  rw [View.canon_unit_zero zero3, View.readCov_unit_zero _ zero2]
  simp only [View.readAt_eq_ld, harg2.read_unread, harg3.read_unread, harg4.read_unread, harg5.read_unread, harg8.read_unread,
    View.ld_unit_zero (S := S1x2048x3) zero3, View.ld_unit_zero (S := S1x2048x1) zero3, View.ld_unit_zero (S := S1x3x4096) zero3,
    View.ld_unit_zero (S := S1x1x4096) zero3, View.ld_unit_zero (S := S1x4096) zero2]
end caseB

end Cert.Kernel.Body

end
-- ==== Proof.WordFrame.lean ====
/-
  The chamfer kernel's run over its grid of 4 × 2 points, with what it leaves behind named.

  Points are numbered 2b + i.  After an even point (first half of cloud b) the first output cell holds that half's
  row sum and the scratch row that half's column minima.  After the odd point that follows, the cell holds the two
  halves' row sums added, the scratch row the two halves' column minima joined by a minimum, and the second output
  cell the sum of the joined minima.  Both cells are written back to row b of their arrays after the odd point only;
  at an even point the second cell is left as it was found.
-/
import proofs.«149844_g4922032521243_cont_8to1_c_580_16_alg».proof.Proof.WordPieces

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Where the body stores into each window -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
/-- The first output cell is stored at every point: one of "first half", "later half" always holds. -/
theorem live4 : ∀ i : grid0.Coords, cfg0.idle 4 i = false := by decide +kernel
/-- The second output cell is stored at the odd points only. -/
theorem idle5_iff : ∀ t : Fin cfg0.N, cfg0.idle 5 (grid0.coords t) = true ↔ t.val % 2 = 0 := by decide +kernel

/-! ## The buffers the body is called with -/

abbrev ms0 (t : Fin cfg0.N) : Memref sig .tc .vmem S1x2048x3 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x2048x1 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x3x4096 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x4096 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1x1 .f32 := win0_5.stage (cfg0.slots t 5)
abbrev hs5 (t : Fin cfg0.N) : (ms5 t).IsWhole := hstage0_5 ((cfg0.slots t 5).cast nbuf0_5)
/-- The scratch row. -/
abbrev scM : Memref sig .tc .vmem S1x4096 .f32 := Memref.whole cc0_scratch0

/-- What the region may use besides its windows: the scratch row at some contents, and the generator register. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## What the body leaves, point by point -/

/-- The point before. -/
def prevPt (t : Fin cfg0.N) : Fin cfg0.N := ⟨t.val - 1, Nat.lt_of_le_of_lt (Nat.sub_le _ _) t.isLt⟩

/-- The row sum of the half at point `t`, as a one-cell array. -/
def halfSum (c : Dev nD) (t : Fin cfg0.N) : Vec F S1x1x1 .f32 := k0_pay4 (iblk m c 0 t) (iblk m c 1 t) (iblk m c 2 t) (iblk m c 3 t)
/-- The column minima of the half at point `t`. -/
def halfMin (c : Dev nD) (t : Fin cfg0.N) : Vec F S1x4096 .f32 := k0_pay5 (iblk m c 0 t) (iblk m c 1 t) (iblk m c 2 t) (iblk m c 3 t)

/-- The first output cell after point `t`. -/
def cellAt (c : Dev nD) (t : Fin cfg0.N) : Vec F S1x1x1 .f32 :=
  if t.val % 2 = 0 then halfSum m c t else k0_pay6 (iblk m c 0 t) (iblk m c 1 t) (iblk m c 2 t) (iblk m c 3 t) (halfSum m c (prevPt t))
/-- The scratch row after point `t`. -/
def rowAt (c : Dev nD) (t : Fin cfg0.N) : Vec F S1x4096 .f32 :=
  if t.val % 2 = 0 then halfMin m c t else k0_pay7 (iblk m c 0 t) (iblk m c 1 t) (iblk m c 2 t) (iblk m c 3 t) (halfMin m c (prevPt t))
/-- The second output cell after an odd point `t` (at an even point nothing is claimed of it). -/
def cell2At (c : Dev nD) (t : Fin cfg0.N) : Vec F S1x1x1 .f32 := k0_pay8 (rowAt m c t)

theorem cellAt_even (c : Dev nD) (t : Fin cfg0.N) (h : t.val % 2 = 0) : cellAt m c t = halfSum m c t := if_pos h
theorem rowAt_even (c : Dev nD) (t : Fin cfg0.N) (h : t.val % 2 = 0) : rowAt m c t = halfMin m c t := if_pos h
theorem cellAt_odd (c : Dev nD) (t : Fin cfg0.N) (h : ¬t.val % 2 = 0) :
    cellAt m c t = k0_pay6 (iblk m c 0 t) (iblk m c 1 t) (iblk m c 2 t) (iblk m c 3 t) (halfSum m c (prevPt t)) := if_neg h
theorem rowAt_odd (c : Dev nD) (t : Fin cfg0.N) (h : ¬t.val % 2 = 0) :
    rowAt m c t = k0_pay7 (iblk m c 0 t) (iblk m c 1 t) (iblk m c 2 t) (iblk m c 3 t) (halfMin m c (prevPt t)) := if_neg h

/-- The region's invariant before position `n`: at the start what the launch hands over; afterwards the scratch row at
    what the point before left in it, and the generator register. -/
def PhiS (c : Dev nD) : (n : ℕ) → n ≤ cfg0.N → sProp 𝕄
  | 0, _ => Pipeline.ΦA spec0 c
  | n + 1, hn => iprop(iprop(owns (c : Thread nD τ) scM fullShare (rowAt m c ⟨n, hn⟩)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM fullShare (rowAt m c ⟨n, hn⟩)) ∗ (∃ r, prngReg c r)) := rfl
theorem PhiS_pos (c : Dev nD) (t : Fin cfg0.N) (hz : t.val ≠ 0) :
    PhiS m c t.val (Nat.le_of_lt t.isLt) = iprop(iprop(owns (c : Thread nD τ) scM fullShare (rowAt m c (prevPt t))) ∗ (∃ r, prngReg c r)) := by
  obtain ⟨n, hn⟩ := t
  cases n with
  | zero => exact absurd rfl hz
  | succ n => rfl

/-! ## The proof data -/

/-- On core `c`: the arrays as the region finds them; after the body each input buffer at its block, the first output
    cell at `cellAt`, the second at `cell2At`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => cellAt m c t
    | ⟨5, _⟩ => cell2At m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = cellAt m c t := by dsimp only [dats]
theorem after5 (c : Dev nD) (t : Fin cfg0.N) : (dats m 0 c).after 5 t = cell2At m c t := by dsimp only [dats]

/-- Each input buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-- At an odd point the first output cell still holds what the even point before left: it is not written back between. -/
theorem before4_odd (c : Dev nD) (t : Fin cfg0.N) (h : t.val % 2 = 1) (d) :
    (dats m 0 c).before 4 t d = halfSum m c (prevPt t) := by
  have hN : t.val < 8 := lt_of_lt_of_eq t.isLt (show cfg0.N = 8 from N_0)
  rw [Dat.before_out_kept _ 4 rfl t (by omega) (Bool.eq_false_iff.mpr fun h' => by have := (flush0_4 _).mp h'; dsimp only at this; omega)
    live4 (fun _ _ => rfl)]
  rw [after4]
  exact cellAt_even m c (prevPt t) (by show (t.val - 1) % 2 = 0; omega)

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 3200000 in
/-- The body at any point: the inputs' buffers hold their blocks; the point's parity says which case it is in; at an odd
    point the first cell and the scratch row hold what the even point before left; so that case's run applies, and what
    it leaves is what the proof data names. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  have hN : t.val < 8 := lt_of_lt_of_eq t.isLt (show cfg0.N = 8 from N_0)
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 4 t = owns (c : Thread nD τ) (ms4 t) fullShare ((dats m 0 c).after 4 t) from by
    unfold Dat.leavesExact; rw [live4 (grid0.coords t)], after4]
  by_cases h0 : t.val % 2 = 0
  · have h1 : ¬t.val % 2 = 1 := by omega
    rw [Dat.leavesExact_idle _ 5 t ((idle5_iff t).mpr h0) (Bool.eq_false_iff.mpr fun h' => h1 ((flush0_5 t).mp h'))]
    rw [cellAt_even m c t h0, rowAt_even m c t h0]
    unfold halfSum halfMin
    by_cases hz : t.val = 0
    · rw [Phi_castSucc m c t, PhiS_zero m c _ _ hz, PhiA_eq]
      iintro ⟨⟨HS, Hg⟩, Ho, ⟨%d0, H0⟩, ⟨%d1, H1⟩, ⟨%d2, H2⟩, ⟨%d3, H3⟩, ⟨%d4, H4⟩, ⟨%d5, H5⟩⟩
      iapply ((runA c (grid0.coords t) _ _ _ _ _ _ _ _ _ _ (ms5 t) (hs5 t) _ _ ((isFirst_iff t).mpr h0) (fun h => h1 ((isLater_iff t).mp h)) (fun h => h1 ((isLast_iff t).mp h)) (iblk m c 0 t) (iblk m c 1 t) (iblk m c 2 t) (iblk m c 3 t)).2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS Hg]
      · isplitl [HS]
        · unfold owns; iexists _; isplitr
          swap; · iexact HS
          ipureintro; exact (View.read_writes_eq_canon _ _ _ (coverA_row c _ _ _ _ _ _ _ _ _ _ _ _ _ _ _ _ _ _ _ _ _ _)).trans (rowA_eq c _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact (View.read_writes_eq_canon _ _ _ (coverA_cell c _ _ _ _ _ _ _ _ _ _ _ _ _ _ _ _ _ _ _ _ _ _)).trans (cellA_eq c _ _ _ _ _ _ _ _ _ _ _ _ _ _ _ _ _ _ _ _ _ _)
      iexists _; iexact H5
    · rw [Phi_castSucc m c t, PhiS_pos m c t hz]
      iintro ⟨⟨HS, Hg⟩, Ho, ⟨%d0, H0⟩, ⟨%d1, H1⟩, ⟨%d2, H2⟩, ⟨%d3, H3⟩, ⟨%d4, H4⟩, ⟨%d5, H5⟩⟩
      iapply ((runA c (grid0.coords t) _ _ _ _ _ _ _ _ _ _ (ms5 t) (hs5 t) _ _ ((isFirst_iff t).mpr h0) (fun h => h1 ((isLater_iff t).mp h)) (fun h => h1 ((isLast_iff t).mp h)) (iblk m c 0 t) (iblk m c 1 t) (iblk m c 2 t) (iblk m c 3 t)).2 Set.univ _)
      isplitl [H0]; · iexact H0
      isplitl [H1]; · iexact H1
      isplitl [H2]; · iexact H2
      isplitl [H3]; · iexact H3
      isplitl [H4]; · iexists _; iexact H4
      isplitl [HS]; · iexists _; iexact HS
      iintro ⟨H0, H1, H2, H3, ⟨%e4, H4⟩, ⟨%es, HS⟩⟩
      isplitl [HS Hg]
      · isplitl [HS]
        · unfold owns; iexists _; isplitr
          swap; · iexact HS
          ipureintro; exact (View.read_writes_eq_canon _ _ _ (coverA_row c _ _ _ _ _ _ _ _ _ _ _ _ _ _ _ _ _ _ _ _ _ _)).trans (rowA_eq c _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact (View.read_writes_eq_canon _ _ _ (coverA_cell c _ _ _ _ _ _ _ _ _ _ _ _ _ _ _ _ _ _ _ _ _ _)).trans (cellA_eq c _ _ _ _ _ _ _ _ _ _ _ _ _ _ _ _ _ _ _ _ _ _)
      iexists _; iexact H5
  · have h1 : t.val % 2 = 1 := by omega
    have hz : t.val ≠ 0 := by omega
    rw [show (dats m 0 c).leavesExact 5 t = owns (c : Thread nD τ) (ms5 t) fullShare ((dats m 0 c).after 5 t) from by
      unfold Dat.leavesExact; rw [Bool.eq_false_iff.mpr fun h' => h0 ((idle5_iff t).mp h')], after5]
    unfold cell2At
    rw [cellAt_odd m c t h0, rowAt_odd m c t h0]
    simp only [before4_odd m c t h1]
    rw [Phi_castSucc m c t, PhiS_pos m c t hz, rowAt_even m c (prevPt t) (by show (t.val - 1) % 2 = 0; omega)]
    iintro ⟨⟨HS, Hg⟩, Ho, ⟨%d0, H0⟩, ⟨%d1, H1⟩, ⟨%d2, H2⟩, ⟨%d3, H3⟩, ⟨%d4, H4⟩, ⟨%d5, H5⟩⟩
    iapply ((runB c (grid0.coords t) _ _ _ _ _ _ _ _ _ _ _ _ _ _ (fun h => h0 ((isFirst_iff t).mp h)) ((isLater_iff t).mpr h1) ((isLast_iff t).mpr h1) (iblk m c 0 t) (iblk m c 1 t) (iblk m c 2 t) (iblk m c 3 t) (halfSum m c (prevPt t)) (halfMin m c (prevPt t))).2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, ⟨%e4, H4⟩, ⟨%e5, H5⟩, ⟨%es, HS⟩⟩
    isplitl [HS Hg]
    · isplitl [HS]
      · unfold owns; iexists _; isplitr
        swap; · iexact HS
        ipureintro; exact (View.read_writes_eq_canon _ _ _ (coverB_row c _ _ _ _ _ _ _ _ _ _ _ _ _ _ _ _ _ _ _ _ _ _ _ _)).trans (rowB_eq c _ _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact (View.read_writes_eq_canon _ _ _ (coverB_cell c _ _ _ _ _ _ _ _ _ _ _ _ _ _ _ _ _ _ _ _ _ _ _ _)).trans (cellB_eq c _ _ _ _ _ _ _ _ _ _ _ _ _ _ _ _ _ _ _ _ _ _ _ _)
    unfold owns; iexists _; isplitr
    swap; · iexact H5
    ipureintro; exact (View.read_writes_eq_canon _ _ _ (coverB_cell2 c _ _ _ _ _ _ _ _ _ _ _ _ _ _ _ _ _ _ _ _ _ _ _ _)).trans (cell2B_eq c _ _ _ _ _ _ _ _ _ _ _ _ _ _ _ _ _ _ _ _ _ _ _ _)

/-- The body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives it back, the scratch row's contents forgotten. -/
theorem hout (c : Dev nD) : (dats m 0 c).Φ (Fin.last cfg0.N) ⊢ Pipeline.ΦA spec0 c := by
  have hN : cfg0.N = 8 := N_0
  rw [show (dats m 0 c).Φ (Fin.last cfg0.N) = PhiS m c (7 + 1) (by omega) from by dsimp only [dats]; simp only [Fin.val_last, hN], PhiS_succ, PhiA_eq]
  iintro ⟨HS, Hg⟩
  isplitl [HS]
  · iexists _; iexact HS
  iexact Hg

/-! ## The run and the frame -/

set_option backward.isDefEq.respectTransparency.types false in
/-- Every weakly fair execution of @main terminates; at the end each windowed array holds what the write-backs of the
    proof data left in it, and every other unscoped buffer what the host operations after the region computed. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: @main terminates without a fault and its two argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Body

end
-- ==== Proof.Spec.lean ====
/-
  The chamfer loss of two clouds of 4096 points in three dimensions, four clouds at a time, over the extended reals,
  written twice.

  `loss` is the textbook form: the squared distance of point n of the first cloud and point m of the second is the
  sum over the three coordinates of the squared difference; each point takes the smallest squared distance to the
  other cloud; the loss is the mean over the 4·4096 points of the first cloud plus the mean over those of the second.

  `lossK` is the blocked form: the squared distance is expanded as −2·⟨x,y⟩ + |x|² + |y|²; the rows of the first
  cloud come in two halves of 2048; each half contributes the sum of its rows' minima, and, per column, the minimum
  over its rows, the two halves' column minima joined by one more minimum; and the means are products with 2⁻¹⁴.

  Every minimum is a fold of `min` from +∞ (the f32 pattern 0x7F800000).
-/
import Idealize.ShloMosaic.Lib.ValueIdx
import Idealize.ShloMosaic.PureOps.Ideal

noncomputable section

namespace Cert.Chamfer

open Idealize.ShloMosaic Idealize.ShloMosaic.ValueIdx

/-- Four clouds of 4096 points with three coordinates. -/
abbrev Pts : Shape := ⟨3, ![4, 4096, 3]⟩

/-- +∞ as the programs spell it. -/
abbrev pinf : EReal := Ideal.ofBits .f32 0x7F800000#32

/-- The minimum of finitely many extended reals, folded from +∞. -/
def minOver {n : ℕ} (f : Fin n → EReal) : EReal := Finset.fold min pinf f Finset.univ

/-- The squared distance of point `n` of cloud `b` of `x` and point `m` of cloud `b` of `y`. -/
def sqd (x y : Pts.Idx → EReal) (b : Fin 4) (n m : Fin 4096) : EReal :=
  ∑ k : Fin 3, (x (ix3 b n k) - y (ix3 b m k)) * (x (ix3 b n k) - y (ix3 b m k))

/-- The textbook chamfer loss; 0x46800000 is 16384 = 4·4096. -/
def loss (x y : Pts.Idx → EReal) : EReal :=
  Ideal.div (∑ b : Fin 4, ∑ n : Fin 4096, minOver fun m : Fin 4096 => sqd x y b n m) (Ideal.ofBits .f32 0x46800000#32)
    + Ideal.div (∑ b : Fin 4, ∑ m : Fin 4096, minOver fun n : Fin 4096 => sqd x y b n m) (Ideal.ofBits .f32 0x46800000#32)

/-- Row `r` of half `i`. -/
def row (i : Fin 2) (r : Fin 2048) : Fin 4096 := ⟨i.val * 2048 + r.val, by omega⟩

/-- The squared distance expanded: (−2·x)·y summed, plus |x|², plus |y|²; 0xC0000000 is −2. -/
def sqdK (x y : Pts.Idx → EReal) (b : Fin 4) (n m : Fin 4096) : EReal :=
  ((∑ k : Fin 3, (Ideal.ofBits .f32 0xC0000000#32 * x (ix3 b n k)) * y (ix3 b m k)) + ∑ k : Fin 3, x (ix3 b n k) * x (ix3 b n k))
    + ∑ k : Fin 3, y (ix3 b m k) * y (ix3 b m k)

/-- The sum over the rows of half `i` of each row's smallest expanded distance. -/
def rowSum (x y : Pts.Idx → EReal) (b : Fin 4) (i : Fin 2) : EReal :=
  ∑ r : Fin 2048, minOver fun m : Fin 4096 => sqdK x y b (row i r) m

/-- Column `m`'s smallest expanded distance over the rows of half `i`. -/
def colMin (x y : Pts.Idx → EReal) (b : Fin 4) (i : Fin 2) (m : Fin 4096) : EReal :=
  minOver fun r : Fin 2048 => sqdK x y b (row i r) m

/-- The blocked chamfer loss; 0x38800000 is 2⁻¹⁴ = 1/16384. -/
def lossK (x y : Pts.Idx → EReal) : EReal :=
  (∑ b : Fin 4, (rowSum x y b 0 + rowSum x y b 1)) * Ideal.ofBits .f32 0x38800000#32
    + (∑ b : Fin 4, ∑ m : Fin 4096, min (colMin x y b 0 m) (colMin x y b 1 m)) * Ideal.ofBits .f32 0x38800000#32

/-- Every coordinate is a real number. -/
def Finite (x : Pts.Idx → EReal) : Prop := ∀ i, x i ≠ ⊤ ∧ x i ≠ ⊥

end Cert.Chamfer

end
-- ==== Proof.IdealPay.lean ====
/-
  The kernel body's payloads, read at an index, over the extended reals.

  One block of the kernel holds 2048 rows of the first cloud and all 4096 columns of the second.  Its distance
  block is, at row r and column m, the product row·column summed over the three coordinates, plus the row's own
  term, plus the column's own term (`dBlk`).  From that block the body takes each row's minimum over the columns
  and sums the 2048 minima; it takes each column's minimum over the rows; on a later block it adds the sum to the
  running sum and joins the column minima with the running column minima by one more minimum; at the end it sums
  the 4096 column minima.  Each payload below is one of these values, as a function of the loaded blocks.
-/
import proofs.«149844_g4922032521243_cont_8to1_c_580_16_alg».proof.Proof.Gen.KernelIdeal.Skeleton
import proofs.«149844_g4922032521243_cont_8to1_c_580_16_alg».proof.Proof.Spec
import Idealize.ShloMosaic.Lib.ValueIdx
import Idealize.ShloMosaic.Lib.Pipeline.Value
import Idealize.ShloMosaic.Lib.ValueLayout
import Idealize.ShloMosaic.PureOps.Ideal.Laws
import Idealize.ShloMosaic.PureOps.Reduce

noncomputable section

namespace Cert.KernelIdeal.Pay

open Cert.KernelIdeal Cert.KernelIdeal.Gen Cert.Chamfer Idealize.ShloMosaic Idealize.ShloMosaic.ValueIdx

/-! ## Layout operations at an index: the column forms -/

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A sum over a shape cast is the sum over the operand: the cast only re-indexes. -/
theorem sum_shapeCast {s t : Shape} (x : s.Idx → EReal) (h : s.ShapeCasts t) :
    ∑ j : t.Idx, shapeCast t x h j = ∑ k : s.Idx, x k :=
  Equiv.sum_comp (Shape.reshapeEquiv h) x

/-- A rank-1 index set is its coordinate's range. -/
def idxEquiv1 (n : ℕ) : Fin n ≃ (⟨1, ![n]⟩ : Shape).Idx where
  toFun r := ix1 r
  invFun i := i 0
  left_inv _ := rfl
  right_inv i := (eq_ix1 i).symm

/-- A sum over a rank-1 index set is the sum over the coordinate. -/
theorem sum_idx1 {n : ℕ} (f : (⟨1, ![n]⟩ : Shape).Idx → EReal) : ∑ i, f i = ∑ r : Fin n, f (ix1 r) :=
  (Equiv.sum_comp (idxEquiv1 n) f).symm

end Layout

/-! ## The distance block -/

/-- The block's distance at row `r` and column `m`: the product of the row and the column summed over the three
    coordinates, plus the row's term, plus the column's term. -/
def dBlk (x0 : Vec Ideal S1x2048x3 .f32) (x1 : Vec Ideal S1x2048x1 .f32) (x2 : Vec Ideal S1x3x4096 .f32)
    (x3 : Vec Ideal S1x1x4096 .f32) (r : Fin 2048) (m : Fin 4096) : EReal :=
  ((∑ k : Fin 3, x0 (ix3 (0 : Fin 1) r k) * x2 (ix3 (0 : Fin 1) k m)) + x1 (ix3 (0 : Fin 1) r (0 : Fin 1)))
    + x3 (ix3 (0 : Fin 1) (0 : Fin 1) m)

/-- The matrix product's dimension numbers: rows × contraction times contraction × columns. -/
abbrev D := dot_S2048x3_S3x4096_S2048x4096_1_0_0_1_n_n

/-- The left operand's index at output `(r, m)` and contraction coordinate `i` is `(r, i)`. -/
theorem lhsIdx_eq (r : Fin 2048) (m : Fin 4096) (i : Fin 3) :
    D.lhsIdx (ix2 r m) ((contrEquiv1 D 3 rfl rfl).symm i) = ix2 r i := by
  funext a
  match a with
  | ⟨0, _⟩ => rfl
  | ⟨1, _⟩ =>
    exact Fin.ext ((DotDims.lhsIdx_val_of_single D rfl (ix2 r m) _).trans (contrEquiv1_symm_val D 3 rfl rfl i))

/-- The right operand's index at output `(r, m)` and contraction coordinate `i` is `(i, m)`. -/
theorem rhsIdx_eq (r : Fin 2048) (m : Fin 4096) (i : Fin 3) :
    D.rhsIdx (ix2 r m) ((contrEquiv1 D 3 rfl rfl).symm i) = ix2 i m := by
  funext a
  match a with
  | ⟨0, _⟩ =>
    exact Fin.ext ((DotDims.rhsIdx_val_of_single D rfl (ix2 r m) _).trans (contrEquiv1_symm_val D 3 rfl rfl i))
  | ⟨1, _⟩ => rfl

/-- The matrix product into the zero splat, at `(r, m)`: the sum over the three coordinates of the products. -/
theorem matmul_apply_rm (lhs : FVec Ideal S2048x3 .f32) (rhs : FVec Ideal S3x4096 .f32) (r : Fin 2048) (m : Fin 4096) :
    matmul D (some .fp32) lhs rhs (constant (F := Ideal) S2048x4096 .f32 0x00000000#32) (ix2 r m)
      = ∑ i : Fin 3, lhs (ix2 r i) * rhs (ix2 i m) := by
  refine (Ideal.matmul_constant_zero_apply D (some .fp32) lhs rhs (ix2 r m)).trans ?_
  rw [← Equiv.sum_comp (contrEquiv1 D 3 rfl rfl).symm]
  refine Finset.sum_congr rfl fun i _ => ?_
  rw [lhsIdx_eq, rhsIdx_eq]

/-- The first payload at `(r, m)` is the distance block. -/
theorem pay1_apply (x0 : Vec Ideal S1x2048x3 .f32) (x1 : Vec Ideal S1x2048x1 .f32) (x2 : Vec Ideal S1x3x4096 .f32)
    (x3 : Vec Ideal S1x1x4096 .f32) (r : Fin 2048) (m : Fin 4096) :
    k0_pay1 (F := Ideal) x0 x1 x2 x3 (ix2 r m) = dBlk x0 x1 x2 x3 r m := by
  unfold k0_pay1 dBlk
  rw [addf_apply, addf_apply, matmul_apply_rm, broadcastTo_a1_ab_apply, broadcastTo_1b_ab_apply]
  simp only [shapeCast_1ab_ab_apply]

/-! ## The row side: each row's minimum, and their sum taken out as a scalar -/

namespace Aux

/-- The minimum along the columns, at row `r`: the minimum folded from +∞ over the 4096 columns of that row. -/
theorem rowMin_apply (src : FVec Ideal S2048x4096 .f32) (h : S2048x4096.Reduces [1] S2048) (hφ : FKind.Formats .f32)
    (hacc : (0x7F800000#32 : BitVec 32) = FKind.minimumf.neutral .f32 hφ) (r : Fin 2048) :
    multiReduction .minimumf [1] S2048 src 0x7F800000#32 h hφ hacc (ix1 r) = minOver fun m : Fin 4096 => src (ix2 r m) := by
  rw [multiReduction_minimumf_eq_fold]
  refine (h.fold_filter_drop_single _ _ src (ix1 r)).trans ?_
  show Finset.fold min pinf (src ∘ h.lift (ix1 r)) (Finset.univ : Finset (Fin 4096))
    = Finset.fold min pinf (fun m : Fin 4096 => src (ix2 r m)) Finset.univ
  congr 1
  funext m
  show src (h.lift (ix1 r) m) = src (ix2 r m)
  congr 1
  funext a
  match a with
  | ⟨0, _⟩ => rfl
  | ⟨1, _⟩ => rfl

/-- The minimum along the rows, at column `m`: the minimum folded from +∞ over the 2048 rows of that column. -/
theorem colMin_apply (src : FVec Ideal S2048x4096 .f32) (h : S2048x4096.Reduces [0] S4096) (hφ : FKind.Formats .f32)
    (hacc : (0x7F800000#32 : BitVec 32) = FKind.minimumf.neutral .f32 hφ) (m : Fin 4096) :
    multiReduction .minimumf [0] S4096 src 0x7F800000#32 h hφ hacc (ix1 m) = minOver fun r : Fin 2048 => src (ix2 r m) := by
  rw [multiReduction_minimumf_eq_fold]
  refine (h.fold_filter_drop_single _ _ src (ix1 m)).trans ?_
  show Finset.fold min pinf (src ∘ h.lift (ix1 m)) (Finset.univ : Finset (Fin 2048))
    = Finset.fold min pinf (fun r : Fin 2048 => src (ix2 r m)) Finset.univ
  congr 1
  funext r
  show src (h.lift (ix1 m) r) = src (ix2 r m)
  congr 1
  funext a
  match a with
  | ⟨0, _⟩ => rfl
  | ⟨1, _⟩ => rfl

/-- A sum over every axis but the unit one, at the result's one index, is the sum over the whole operand. -/
theorem addTotal_apply {s : Shape} {axes : List (Fin s.rank)} (src : FVec Ideal s .f32) (h : s.Reduces axes S1)
    (hφ : FKind.Formats .f32) (hacc : (0x00000000#32 : BitVec 32) = FKind.add.neutral .f32 hφ) (j : S1.Idx) :
    multiReduction .add axes S1 src 0x00000000#32 h hφ hacc j = ∑ i : s.Idx, src i :=
  Ideal.multiReduction_add_total src _ h (fun b => by match b with | ⟨0, _⟩ => rfl) hφ hacc j

/-- A one-element array cast to `[1, 1, 1]`, read at its one position and spread over `[1, 1]`, reads the array at
    the position the cast names. -/
theorem broadcast_extract_cast (w : FVec Ideal S1 .f32) (h : S1.ShapeCasts S1x1x1)
    (hp : ∀ a, (![0, 0, 0] : Fin 3 → Nat) a < S1x1x1.size a) (j : S1x1.Idx) :
    broadcast S1x1 (extractAt ![0, 0, 0] (shapeCast S1x1x1 w h) hp) j
      = w (Shape.reshapeEquiv h fun a => ⟨(![0, 0, 0] : Fin 3 → Nat) a, hp a⟩) := rfl

/-- A shape cast of an array that holds `c` everywhere holds `c` everywhere. -/
theorem shapeCast_of_const {α : Type} {s t : Shape} (x : s.Idx → α) (c : α) (hx : ∀ k, x k = c) (h : s.ShapeCasts t) (j : t.Idx) :
    shapeCast t x h j = c := hx _

end Aux

section RowSide
variable (x0 : Vec Ideal S1x2048x3 .f32) (x1 : Vec Ideal S1x2048x1 .f32) (x2 : Vec Ideal S1x3x4096 .f32)
  (x3 : Vec Ideal S1x1x4096 .f32) (xo : Vec Ideal S1x1x1 .f32)

/-- The second payload, everywhere: the sum over the block's rows of each row's smallest distance. -/
theorem pay2_apply (j : S1x1.Idx) :
    k0_pay2 (F := Ideal) x0 x1 x2 x3 j = ∑ r : Fin 2048, minOver fun m : Fin 4096 => dBlk x0 x1 x2 x3 r m := by
  unfold k0_pay2
  refine (Aux.broadcast_extract_cast _ _ _ j).trans ?_
  refine (Aux.addTotal_apply _ _ _ _ _).trans ?_
  refine (sum_shapeCast _ _).trans ?_
  refine (sum_shapeCast _ _).trans ?_
  refine (sum_idx1 _).trans ?_
  refine Finset.sum_congr rfl fun r _ => ?_
  refine (Aux.rowMin_apply _ _ _ _ r).trans ?_
  exact congrArg (fun f : Fin 4096 → EReal => minOver f) (funext fun m => pay1_apply x0 x1 x2 x3 r m)

/-- The value the first block stores as the running sum. -/
theorem pay4_eq :
    k0_pay4 (F := Ideal) x0 x1 x2 x3 = fun _ => ∑ r : Fin 2048, minOver fun m : Fin 4096 => dBlk x0 x1 x2 x3 r m := by
  funext j
  unfold k0_pay4
  exact Aux.shapeCast_of_const _ _ (pay2_apply x0 x1 x2 x3) _ j

/-- The value a later block stores as the running sum: the sum so far plus the block's own. -/
theorem pay6_eq :
    k0_pay6 (F := Ideal) x0 x1 x2 x3 xo
      = fun j => xo j + ∑ r : Fin 2048, minOver fun m : Fin 4096 => dBlk x0 x1 x2 x3 r m := by
  funext j
  unfold k0_pay6
  exact (addf_apply _ _ j).trans
    (congrArg₂ (· + ·) (congrFun (shapeCast_self xo _) j) (Aux.shapeCast_of_const _ _ (pay2_apply x0 x1 x2 x3) _ j))

end RowSide

end Cert.KernelIdeal.Pay

end
-- ==== Proof.IdealPayCol.lean ====
/-
  The column side of the kernel body's payloads, read at an index, over the extended reals.

  From the block's distances the body takes each column's minimum over the block's 2048 rows; the first block
  stores these minima, a later block joins them with the running column minima by one more minimum; at the end the
  body sums the 4096 running column minima.
-/
import proofs.«149844_g4922032521243_cont_8to1_c_580_16_alg».proof.Proof.IdealPay
import Idealize.ShloMosaic.Lib.ValueIdx
import Idealize.ShloMosaic.Lib.Pipeline.Value
import Idealize.ShloMosaic.Lib.ValueLayout
import Idealize.ShloMosaic.PureOps.Ideal.Laws
import Idealize.ShloMosaic.PureOps.Reduce

noncomputable section

namespace Cert.KernelIdeal.PayCol

open Cert.KernelIdeal Cert.KernelIdeal.Gen Cert.KernelIdeal.Pay Cert.Chamfer Idealize.ShloMosaic Idealize.ShloMosaic.ValueIdx

section ColSide
variable (x0 : Vec Ideal S1x2048x3 .f32) (x1 : Vec Ideal S1x2048x1 .f32) (x2 : Vec Ideal S1x3x4096 .f32)
  (x3 : Vec Ideal S1x1x4096 .f32) (xs v : Vec Ideal S1x4096 .f32)

/-- The third payload at column `m` (whatever the unit coordinate): the column's smallest distance over the block's rows. -/
theorem pay3_apply (u : Fin 1) (m : Fin 4096) :
    k0_pay3 (F := Ideal) x0 x1 x2 x3 (ix2 u m) = minOver fun r : Fin 2048 => dBlk x0 x1 x2 x3 r m := by
  unfold k0_pay3
  refine (shapeCast_a_1a_apply _ _ u m).trans ?_
  refine (Aux.colMin_apply _ _ _ _ m).trans ?_
  exact congrArg (fun f : Fin 2048 → EReal => minOver f) (funext fun r => pay1_apply x0 x1 x2 x3 r m)

/-- The third payload at any index: its column coordinate names the column. -/
theorem pay3_at (j : S1x4096.Idx) :
    k0_pay3 (F := Ideal) x0 x1 x2 x3 j = minOver fun r : Fin 2048 => dBlk x0 x1 x2 x3 r (j 1) :=
  (congrArg (k0_pay3 (F := Ideal) x0 x1 x2 x3) (eq_ix2 j)).trans (pay3_apply x0 x1 x2 x3 (j 0) (j 1))

/-- The value the first block stores as the running column minima. -/
theorem pay5_eq :
    k0_pay5 (F := Ideal) x0 x1 x2 x3 = fun j => minOver fun r : Fin 2048 => dBlk x0 x1 x2 x3 r (j 1) := by
  funext j
  unfold k0_pay5
  refine (congrFun (shapeCast_self (k0_pay3 (F := Ideal) x0 x1 x2 x3) _) j).trans ?_
  exact pay3_at x0 x1 x2 x3 j

/-- The value a later block stores as the running column minima: the smaller of the minimum so far and the block's own. -/
theorem pay7_eq :
    k0_pay7 (F := Ideal) x0 x1 x2 x3 xs
      = fun j => min (xs j) (minOver fun r : Fin 2048 => dBlk x0 x1 x2 x3 r (j 1)) := by
  funext j
  unfold k0_pay7
  refine (congrFun (shapeCast_self (minimumf xs (k0_pay3 (F := Ideal) x0 x1 x2 x3)) _) j).trans ?_
  refine (minimumf_apply _ _ j).trans ?_
  exact congrArg (min (xs j)) (pay3_at x0 x1 x2 x3 j)

/-- The last payload, everywhere: the sum of the 4096 running column minima. -/
theorem pay8_eq :
    k0_pay8 (F := Ideal) v = fun _ => ∑ m : Fin 4096, v (ix2 (0 : Fin 1) m) := by
  funext j
  unfold k0_pay8
  refine Aux.shapeCast_of_const _ _ (fun k => ?_) _ j
  refine (Aux.broadcast_extract_cast _ _ _ k).trans ?_
  refine (Aux.addTotal_apply _ _ _ _ _).trans ?_
  refine (sum_shapeCast _ _).trans ?_
  refine (sum_idx2 _).trans ?_
  exact Fin.sum_univ_one _

end ColSide

end Cert.KernelIdeal.PayCol

end
-- ==== Proof.IdealRuns.lean ====
/-
  The body of the chamfer kernel, run once per control case on any whole staging buffers.

  A grid point (b, i) is in case A when i = 0 (the first half of the rows of cloud b) and in case B when i = 1 (the
  second half).  In case A the body overwrites the running row-sum cell and the running column minima with this half's
  values and leaves the second output cell alone.  In case B it adds this half's row sum to the cell, joins this half's
  column minima to the running ones by a minimum, and stores the sum of the joined minima in the second output cell.
  Each run records the stores it made into each buffer, last first.
-/
import proofs.«149844_g4922032521243_cont_8to1_c_580_16_alg».proof.Proof.Gen.KernelIdeal.Frame
import proofs.«149844_g4922032521243_cont_8to1_c_580_16_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The three conditions, over the grid -/

/-- "This is the first half" (i = 0). -/
abbrev isFirst (i : grid0.Coords) : Prop := k0_cond1 i = 1#1
/-- "This is a later half" (i > 0). -/
abbrev isLater (i : grid0.Coords) : Prop := k0_cond2 i = 1#1
/-- "This is the last half" (i = 1). -/
abbrev isLast (i : grid0.Coords) : Prop := k0_cond3 i = 1#1

/-- Points are numbered 2b + i: the first half is at the even points, -/
theorem isFirst_iff : ∀ t : Fin cfg0.N, isFirst (grid0.coords t) ↔ t.val % 2 = 0 :=
  (by decide +kernel : ∀ t : Fin grid0.N, isFirst (grid0.coords t) ↔ t.val % 2 = 0)
/-- the later halves at the odd ones, -/
theorem isLater_iff : ∀ t : Fin cfg0.N, isLater (grid0.coords t) ↔ t.val % 2 = 1 :=
  (by decide +kernel : ∀ t : Fin grid0.N, isLater (grid0.coords t) ↔ t.val % 2 = 1)
/-- and the last half too. -/
theorem isLast_iff : ∀ t : Fin cfg0.N, isLast (grid0.coords t) ↔ t.val % 2 = 1 :=
  (by decide +kernel : ∀ t : Fin grid0.N, isLast (grid0.coords t) ↔ t.val % 2 = 1)

/-! ## The body's runs -/

set_option maxHeartbeats 1000000 in
/-- Case A (first half).  From the four input blocks at `x0 … x3` and the first output cell and the scratch row at
    anything, the body ends with the inputs as they were and with the recorded stores written into the first cell
    (`.1`) and the scratch row (`.2`); the second output cell is not touched. -/
noncomputable def runA (c : Dev nD) (i : grid0.Coords) (arg2 : Memref sig .tc .vmem S1x2048x3 .f32) (harg2 : arg2.IsWhole) (arg3 : Memref sig .tc .vmem S1x2048x1 .f32) (harg3 : arg3.IsWhole) (arg4 : Memref sig .tc .vmem S1x3x4096 .f32) (harg4 : arg4.IsWhole) (arg5 : Memref sig .tc .vmem S1x1x4096 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x4096 .f32) (harg8 : arg8.IsWhole) (hc0 : isFirst i) (hc1 : ¬isLater i) (hc2 : ¬isLast i)
    (x0 : Vec F S1x2048x3 .f32) (x1 : Vec F S1x2048x1 .f32) (x2 : Vec F S1x3x4096 .f32) (x3 : Vec F S1x1x4096 .f32) :
    { L : List (View.Piece (Elt F) S1x1x1 .f32) × List (View.Piece (Elt F) S1x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L.1) ∗ (∃ f, arg8.view.loc (c : Thread nD τ) ↦[arg8.view.set]{fullShare} arg8.view.writes (Elt F) f L.2)) -∗ K ⟨⟩))
          ⊢ wp frame (wpE (defs₀ (F := F)) Variants.none c none) E (cc0__chamfer_block_kernel i arg2 harg2 arg3 harg3 arg4 harg4 arg5 harg5 arg6 harg6 arg7 harg7 arg8 harg8) K } := by
  refine ⟨(?_, ?_), fun E K => ?run⟩
  case run =>
    simp only [cc0__chamfer_block_kernel_eq_skeleton]; unfold cc0__chamfer_block_kernel_skel
    unfold owns
    iintro ⟨⟨%f0, %hf0, H0⟩, ⟨%f1, %hf1, H1⟩, ⟨%f2, %hf2, H2⟩, ⟨%f3, %hf3, H3⟩, ⟨%d4, %f4, -, H4⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexists _; iexact HS

set_option maxHeartbeats 1000000 in
/-- Case B (second half).  From the four input blocks at `x0 … x3`, the first output cell at `xo` and the scratch
    row at `xs` (what the first half left) and the second output cell at anything, the body ends with the inputs as
    they were and with the recorded stores written into the first cell (`.1`), the second cell (`.2.1`) and the
    scratch row (`.2.2`). -/
noncomputable def runB (c : Dev nD) (i : grid0.Coords) (arg2 : Memref sig .tc .vmem S1x2048x3 .f32) (harg2 : arg2.IsWhole) (arg3 : Memref sig .tc .vmem S1x2048x1 .f32) (harg3 : arg3.IsWhole) (arg4 : Memref sig .tc .vmem S1x3x4096 .f32) (harg4 : arg4.IsWhole) (arg5 : Memref sig .tc .vmem S1x1x4096 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x4096 .f32) (harg8 : arg8.IsWhole) (hc0 : ¬isFirst i) (hc1 : isLater i) (hc2 : isLast i)
    (x0 : Vec F S1x2048x3 .f32) (x1 : Vec F S1x2048x1 .f32) (x2 : Vec F S1x3x4096 .f32) (x3 : Vec F S1x1x4096 .f32) (xo : Vec F S1x1x1 .f32) (xs : Vec F S1x4096 .f32) :
    { L : List (View.Piece (Elt F) S1x1x1 .f32) × List (View.Piece (Elt F) S1x1x1 .f32) × List (View.Piece (Elt F) S1x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ (∃ d, owns (c : Thread nD τ) arg7 fullShare d) ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L.1) ∗ (∃ f, arg7.view.loc (c : Thread nD τ) ↦[arg7.view.set]{fullShare} arg7.view.writes (Elt F) f L.2.1) ∗ (∃ f, arg8.view.loc (c : Thread nD τ) ↦[arg8.view.set]{fullShare} arg8.view.writes (Elt F) f L.2.2)) -∗ K ⟨⟩))
          ⊢ wp frame (wpE (defs₀ (F := F)) Variants.none c none) E (cc0__chamfer_block_kernel i arg2 harg2 arg3 harg3 arg4 harg4 arg5 harg5 arg6 harg6 arg7 harg7 arg8 harg8) K } := by
  refine ⟨(?_, ?_, ?_), fun E K => ?run⟩
  case run =>
    simp only [cc0__chamfer_block_kernel_eq_skeleton]; unfold cc0__chamfer_block_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    isplitl [H5]
    · iexists _; iexact H5
    iexists _; iexact HS

end Cert.KernelIdeal.Body

end
-- ==== Proof.IdealPieces.lean ====
/-
  What each run of the chamfer kernel's body leaves in the buffers it stores into, as a function of what it loaded.

  Every store of the body goes through a whole buffer, so after a run each stored buffer holds the payload of the last
  store into it: the first-half case leaves this half's row sum in the first output cell and this half's column minima
  in the scratch row; the second-half case leaves the running sum plus this half's, the joined column minima, and in
  the second output cell the sum of the joined minima (which it reads back from the scratch row it has just stored).
-/
import Idealize.ShloMosaic.Lib.Pipeline.Value
import proofs.«149844_g4922032521243_cont_8to1_c_580_16_alg».proof.Proof.IdealRuns

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem zero3 : (![0, 0, 0] : Fin 3 → ℕ) = fun _ => 0 := by funext a; fin_cases a <;> rfl
theorem zero2 : (![0, 0] : Fin 2 → ℕ) = fun _ => 0 := by funext a; fin_cases a <;> rfl

section caseA
variable (c : Dev nD) (i : grid0.Coords) (arg2 : Memref sig .tc .vmem S1x2048x3 .f32) (harg2 : arg2.IsWhole) (arg3 : Memref sig .tc .vmem S1x2048x1 .f32) (harg3 : arg3.IsWhole) (arg4 : Memref sig .tc .vmem S1x3x4096 .f32) (harg4 : arg4.IsWhole) (arg5 : Memref sig .tc .vmem S1x1x4096 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x4096 .f32) (harg8 : arg8.IsWhole) (hc0 : isFirst i) (hc1 : ¬isLater i) (hc2 : ¬isLast i)
    (x0 : Vec F S1x2048x3 .f32) (x1 : Vec F S1x2048x1 .f32) (x2 : Vec F S1x3x4096 .f32) (x3 : Vec F S1x1x4096 .f32)

/-- The first half's store into the first output cell covers it. -/
theorem coverA_cell (y : S1x1x1.Idx) : ∃ pc ∈ (runA c i arg2 harg2 arg3 harg3 arg4 harg4 arg5 harg5 arg6 harg6 arg7 harg7 arg8 harg8 hc0 hc1 hc2 x0 x1 x2 x3).1.1, y ∈ pc.1.set :=
  View.cover_of_tiledL (runA c i arg2 harg2 arg3 harg3 arg4 harg4 arg5 harg5 arg6 harg6 arg7 harg7 arg8 harg8 hc0 hc1 hc2 x0 x1 x2 x3).1.1 S1x1x1.size (by sl_kernel_rfl) y
/-- The first half's store into the scratch row covers it. -/
theorem coverA_row (y : S1x4096.Idx) : ∃ pc ∈ (runA c i arg2 harg2 arg3 harg3 arg4 harg4 arg5 harg5 arg6 harg6 arg7 harg7 arg8 harg8 hc0 hc1 hc2 x0 x1 x2 x3).1.2, y ∈ pc.1.set :=
  View.cover_of_tiledL (runA c i arg2 harg2 arg3 harg3 arg4 harg4 arg5 harg5 arg6 harg6 arg7 harg7 arg8 harg8 hc0 hc1 hc2 x0 x1 x2 x3).1.2 S1x4096.size (by sl_kernel_rfl) y

/-- After the first half the first output cell holds this half's row sum. -/
theorem cellA_eq : View.canon (runA c i arg2 harg2 arg3 harg3 arg4 harg4 arg5 harg5 arg6 harg6 arg7 harg7 arg8 harg8 hc0 hc1 hc2 x0 x1 x2 x3).1.1 = k0_pay4 x0 x1 x2 x3 := by
  unfold runA; dsimp only; sl_unfold_words
  rw [View.canon_unit_zero zero3]
  simp only [View.readAt_eq_ld, harg2.read_unread, harg3.read_unread, harg4.read_unread, harg5.read_unread,
    View.ld_unit_zero (S := S1x2048x3) zero3, View.ld_unit_zero (S := S1x2048x1) zero3, View.ld_unit_zero (S := S1x3x4096) zero3,
    View.ld_unit_zero (S := S1x1x4096) zero3]

/-- After the first half the scratch row holds this half's column minima. -/
theorem rowA_eq : View.canon (runA c i arg2 harg2 arg3 harg3 arg4 harg4 arg5 harg5 arg6 harg6 arg7 harg7 arg8 harg8 hc0 hc1 hc2 x0 x1 x2 x3).1.2 = k0_pay5 x0 x1 x2 x3 := by
  unfold runA; dsimp only; sl_unfold_words
  rw [View.canon_unit_zero zero2]
  simp only [View.readAt_eq_ld, harg2.read_unread, harg3.read_unread, harg4.read_unread, harg5.read_unread,
    View.ld_unit_zero (S := S1x2048x3) zero3, View.ld_unit_zero (S := S1x2048x1) zero3, View.ld_unit_zero (S := S1x3x4096) zero3,
    View.ld_unit_zero (S := S1x1x4096) zero3]
end caseA

section caseB
variable (c : Dev nD) (i : grid0.Coords) (arg2 : Memref sig .tc .vmem S1x2048x3 .f32) (harg2 : arg2.IsWhole) (arg3 : Memref sig .tc .vmem S1x2048x1 .f32) (harg3 : arg3.IsWhole) (arg4 : Memref sig .tc .vmem S1x3x4096 .f32) (harg4 : arg4.IsWhole) (arg5 : Memref sig .tc .vmem S1x1x4096 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x4096 .f32) (harg8 : arg8.IsWhole) (hc0 : ¬isFirst i) (hc1 : isLater i) (hc2 : isLast i)
    (x0 : Vec F S1x2048x3 .f32) (x1 : Vec F S1x2048x1 .f32) (x2 : Vec F S1x3x4096 .f32) (x3 : Vec F S1x1x4096 .f32) (xo : Vec F S1x1x1 .f32) (xs : Vec F S1x4096 .f32)

/-- The second half's store into the first output cell covers it. -/
theorem coverB_cell (y : S1x1x1.Idx) : ∃ pc ∈ (runB c i arg2 harg2 arg3 harg3 arg4 harg4 arg5 harg5 arg6 harg6 arg7 harg7 arg8 harg8 hc0 hc1 hc2 x0 x1 x2 x3 xo xs).1.1, y ∈ pc.1.set :=
  View.cover_of_tiledL (runB c i arg2 harg2 arg3 harg3 arg4 harg4 arg5 harg5 arg6 harg6 arg7 harg7 arg8 harg8 hc0 hc1 hc2 x0 x1 x2 x3 xo xs).1.1 S1x1x1.size (by sl_kernel_rfl) y
/-- The second half's store into the second output cell covers it. -/
theorem coverB_cell2 (y : S1x1x1.Idx) : ∃ pc ∈ (runB c i arg2 harg2 arg3 harg3 arg4 harg4 arg5 harg5 arg6 harg6 arg7 harg7 arg8 harg8 hc0 hc1 hc2 x0 x1 x2 x3 xo xs).1.2.1, y ∈ pc.1.set :=
  View.cover_of_tiledL (runB c i arg2 harg2 arg3 harg3 arg4 harg4 arg5 harg5 arg6 harg6 arg7 harg7 arg8 harg8 hc0 hc1 hc2 x0 x1 x2 x3 xo xs).1.2.1 S1x1x1.size (by sl_kernel_rfl) y
/-- The second half's store into the scratch row covers it. -/
theorem coverB_row (y : S1x4096.Idx) : ∃ pc ∈ (runB c i arg2 harg2 arg3 harg3 arg4 harg4 arg5 harg5 arg6 harg6 arg7 harg7 arg8 harg8 hc0 hc1 hc2 x0 x1 x2 x3 xo xs).1.2.2, y ∈ pc.1.set :=
  View.cover_of_tiledL (runB c i arg2 harg2 arg3 harg3 arg4 harg4 arg5 harg5 arg6 harg6 arg7 harg7 arg8 harg8 hc0 hc1 hc2 x0 x1 x2 x3 xo xs).1.2.2 S1x4096.size (by sl_kernel_rfl) y

/-- After the second half the first output cell holds what it held plus this half's row sum. -/
theorem cellB_eq : View.canon (runB c i arg2 harg2 arg3 harg3 arg4 harg4 arg5 harg5 arg6 harg6 arg7 harg7 arg8 harg8 hc0 hc1 hc2 x0 x1 x2 x3 xo xs).1.1 = k0_pay6 x0 x1 x2 x3 xo := by
  unfold runB; dsimp only; sl_unfold_words
  rw [View.canon_unit_zero zero3]
  simp only [View.readAt_eq_ld, harg2.read_unread, harg3.read_unread, harg4.read_unread, harg5.read_unread, harg6.read_unread,
    View.ld_unit_zero (S := S1x2048x3) zero3, View.ld_unit_zero (S := S1x2048x1) zero3, View.ld_unit_zero (S := S1x3x4096) zero3,
    View.ld_unit_zero (S := S1x1x4096) zero3, View.ld_unit_zero (S := S1x1x1) zero3]

/-- After the second half the scratch row holds the minimum of what it held and this half's column minima. -/
theorem rowB_eq : View.canon (runB c i arg2 harg2 arg3 harg3 arg4 harg4 arg5 harg5 arg6 harg6 arg7 harg7 arg8 harg8 hc0 hc1 hc2 x0 x1 x2 x3 xo xs).1.2.2 = k0_pay7 x0 x1 x2 x3 xs := by
  unfold runB; dsimp only; sl_unfold_words
  rw [View.canon_unit_zero zero2]
  simp only [View.readAt_eq_ld, harg2.read_unread, harg3.read_unread, harg4.read_unread, harg5.read_unread, harg8.read_unread,
    View.ld_unit_zero (S := S1x2048x3) zero3, View.ld_unit_zero (S := S1x2048x1) zero3, View.ld_unit_zero (S := S1x3x4096) zero3,
    View.ld_unit_zero (S := S1x1x4096) zero3, View.ld_unit_zero (S := S1x4096) zero2]

/-- After the second half the second output cell holds the sum of the joined column minima. -/
theorem cell2B_eq : View.canon (runB c i arg2 harg2 arg3 harg3 arg4 harg4 arg5 harg5 arg6 harg6 arg7 harg7 arg8 harg8 hc0 hc1 hc2 x0 x1 x2 x3 xo xs).1.2.1 = k0_pay8 (k0_pay7 x0 x1 x2 x3 xs) := by
  unfold runB; dsimp only; sl_unfold_words
  rw [View.canon_unit_zero zero3, View.readCov_unit_zero _ zero2]
  simp only [View.readAt_eq_ld, harg2.read_unread, harg3.read_unread, harg4.read_unread, harg5.read_unread, harg8.read_unread,
    View.ld_unit_zero (S := S1x2048x3) zero3, View.ld_unit_zero (S := S1x2048x1) zero3, View.ld_unit_zero (S := S1x3x4096) zero3,
    View.ld_unit_zero (S := S1x1x4096) zero3, View.ld_unit_zero (S := S1x4096) zero2]
end caseB

end Cert.KernelIdeal.Body

end
-- ==== Proof.IdealFrame.lean ====
/-
  The chamfer kernel's run over its grid of 4 × 2 points, with what it leaves behind named.

  Points are numbered 2b + i.  After an even point (first half of cloud b) the first output cell holds that half's
  row sum and the scratch row that half's column minima.  After the odd point that follows, the cell holds the two
  halves' row sums added, the scratch row the two halves' column minima joined by a minimum, and the second output
  cell the sum of the joined minima.  Both cells are written back to row b of their arrays after the odd point only;
  at an even point the second cell is left as it was found.
-/
import proofs.«149844_g4922032521243_cont_8to1_c_580_16_alg».proof.Proof.IdealPieces

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Where the body stores into each window -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
/-- The first output cell is stored at every point: one of "first half", "later half" always holds. -/
theorem live4 : ∀ i : grid0.Coords, cfg0.idle 4 i = false := by decide +kernel
/-- The second output cell is stored at the odd points only. -/
theorem idle5_iff : ∀ t : Fin cfg0.N, cfg0.idle 5 (grid0.coords t) = true ↔ t.val % 2 = 0 := by decide +kernel

/-! ## The buffers the body is called with -/

abbrev ms0 (t : Fin cfg0.N) : Memref sig .tc .vmem S1x2048x3 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x2048x1 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x3x4096 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x4096 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1x1 .f32 := win0_5.stage (cfg0.slots t 5)
abbrev hs5 (t : Fin cfg0.N) : (ms5 t).IsWhole := hstage0_5 ((cfg0.slots t 5).cast nbuf0_5)
/-- The scratch row. -/
abbrev scM : Memref sig .tc .vmem S1x4096 .f32 := Memref.whole cc0_scratch0

/-- What the region may use besides its windows: the scratch row at some contents, and the generator register. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## What the body leaves, point by point -/

/-- The point before. -/
def prevPt (t : Fin cfg0.N) : Fin cfg0.N := ⟨t.val - 1, Nat.lt_of_le_of_lt (Nat.sub_le _ _) t.isLt⟩

/-- The row sum of the half at point `t`, as a one-cell array. -/
def halfSum (c : Dev nD) (t : Fin cfg0.N) : Vec F S1x1x1 .f32 := k0_pay4 (iblk m c 0 t) (iblk m c 1 t) (iblk m c 2 t) (iblk m c 3 t)
/-- The column minima of the half at point `t`. -/
def halfMin (c : Dev nD) (t : Fin cfg0.N) : Vec F S1x4096 .f32 := k0_pay5 (iblk m c 0 t) (iblk m c 1 t) (iblk m c 2 t) (iblk m c 3 t)

/-- The first output cell after point `t`. -/
def cellAt (c : Dev nD) (t : Fin cfg0.N) : Vec F S1x1x1 .f32 :=
  if t.val % 2 = 0 then halfSum m c t else k0_pay6 (iblk m c 0 t) (iblk m c 1 t) (iblk m c 2 t) (iblk m c 3 t) (halfSum m c (prevPt t))
/-- The scratch row after point `t`. -/
def rowAt (c : Dev nD) (t : Fin cfg0.N) : Vec F S1x4096 .f32 :=
  if t.val % 2 = 0 then halfMin m c t else k0_pay7 (iblk m c 0 t) (iblk m c 1 t) (iblk m c 2 t) (iblk m c 3 t) (halfMin m c (prevPt t))
/-- The second output cell after an odd point `t` (at an even point nothing is claimed of it). -/
def cell2At (c : Dev nD) (t : Fin cfg0.N) : Vec F S1x1x1 .f32 := k0_pay8 (rowAt m c t)

theorem cellAt_even (c : Dev nD) (t : Fin cfg0.N) (h : t.val % 2 = 0) : cellAt m c t = halfSum m c t := if_pos h
theorem rowAt_even (c : Dev nD) (t : Fin cfg0.N) (h : t.val % 2 = 0) : rowAt m c t = halfMin m c t := if_pos h
theorem cellAt_odd (c : Dev nD) (t : Fin cfg0.N) (h : ¬t.val % 2 = 0) :
    cellAt m c t = k0_pay6 (iblk m c 0 t) (iblk m c 1 t) (iblk m c 2 t) (iblk m c 3 t) (halfSum m c (prevPt t)) := if_neg h
theorem rowAt_odd (c : Dev nD) (t : Fin cfg0.N) (h : ¬t.val % 2 = 0) :
    rowAt m c t = k0_pay7 (iblk m c 0 t) (iblk m c 1 t) (iblk m c 2 t) (iblk m c 3 t) (halfMin m c (prevPt t)) := if_neg h

/-- The region's invariant before position `n`: at the start what the launch hands over; afterwards the scratch row at
    what the point before left in it, and the generator register. -/
def PhiS (c : Dev nD) : (n : ℕ) → n ≤ cfg0.N → sProp 𝕄
  | 0, _ => Pipeline.ΦA spec0 c
  | n + 1, hn => iprop(iprop(owns (c : Thread nD τ) scM fullShare (rowAt m c ⟨n, hn⟩)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM fullShare (rowAt m c ⟨n, hn⟩)) ∗ (∃ r, prngReg c r)) := rfl
theorem PhiS_pos (c : Dev nD) (t : Fin cfg0.N) (hz : t.val ≠ 0) :
    PhiS m c t.val (Nat.le_of_lt t.isLt) = iprop(iprop(owns (c : Thread nD τ) scM fullShare (rowAt m c (prevPt t))) ∗ (∃ r, prngReg c r)) := by
  obtain ⟨n, hn⟩ := t
  cases n with
  | zero => exact absurd rfl hz
  | succ n => rfl

/-! ## The proof data -/

/-- On core `c`: the arrays as the region finds them; after the body each input buffer at its block, the first output
    cell at `cellAt`, the second at `cell2At`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => cellAt m c t
    | ⟨5, _⟩ => cell2At m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = cellAt m c t := by dsimp only [dats]
theorem after5 (c : Dev nD) (t : Fin cfg0.N) : (dats m 0 c).after 5 t = cell2At m c t := by dsimp only [dats]

/-- Each input buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-- At an odd point the first output cell still holds what the even point before left: it is not written back between. -/
theorem before4_odd (c : Dev nD) (t : Fin cfg0.N) (h : t.val % 2 = 1) (d) :
    (dats m 0 c).before 4 t d = halfSum m c (prevPt t) := by
  have hN : t.val < 8 := lt_of_lt_of_eq t.isLt (show cfg0.N = 8 from N_0)
  rw [Dat.before_out_kept _ 4 rfl t (by omega) (Bool.eq_false_iff.mpr fun h' => by have := (flush0_4 _).mp h'; dsimp only at this; omega)
    live4 (fun _ _ => rfl)]
  rw [after4]
  exact cellAt_even m c (prevPt t) (by show (t.val - 1) % 2 = 0; omega)

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 3200000 in
/-- The body at any point: the inputs' buffers hold their blocks; the point's parity says which case it is in; at an odd
    point the first cell and the scratch row hold what the even point before left; so that case's run applies, and what
    it leaves is what the proof data names. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  have hN : t.val < 8 := lt_of_lt_of_eq t.isLt (show cfg0.N = 8 from N_0)
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 4 t = owns (c : Thread nD τ) (ms4 t) fullShare ((dats m 0 c).after 4 t) from by
    unfold Dat.leavesExact; rw [live4 (grid0.coords t)], after4]
  by_cases h0 : t.val % 2 = 0
  · have h1 : ¬t.val % 2 = 1 := by omega
    rw [Dat.leavesExact_idle _ 5 t ((idle5_iff t).mpr h0) (Bool.eq_false_iff.mpr fun h' => h1 ((flush0_5 t).mp h'))]
    rw [cellAt_even m c t h0, rowAt_even m c t h0]
    unfold halfSum halfMin
    by_cases hz : t.val = 0
    · rw [Phi_castSucc m c t, PhiS_zero m c _ _ hz, PhiA_eq]
      iintro ⟨⟨HS, Hg⟩, Ho, ⟨%d0, H0⟩, ⟨%d1, H1⟩, ⟨%d2, H2⟩, ⟨%d3, H3⟩, ⟨%d4, H4⟩, ⟨%d5, H5⟩⟩
      iapply ((runA c (grid0.coords t) _ _ _ _ _ _ _ _ _ _ (ms5 t) (hs5 t) _ _ ((isFirst_iff t).mpr h0) (fun h => h1 ((isLater_iff t).mp h)) (fun h => h1 ((isLast_iff t).mp h)) (iblk m c 0 t) (iblk m c 1 t) (iblk m c 2 t) (iblk m c 3 t)).2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS Hg]
      · isplitl [HS]
        · unfold owns; iexists _; isplitr
          swap; · iexact HS
          ipureintro; exact (View.read_writes_eq_canon _ _ _ (coverA_row c _ _ _ _ _ _ _ _ _ _ _ _ _ _ _ _ _ _ _ _ _ _)).trans (rowA_eq c _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact (View.read_writes_eq_canon _ _ _ (coverA_cell c _ _ _ _ _ _ _ _ _ _ _ _ _ _ _ _ _ _ _ _ _ _)).trans (cellA_eq c _ _ _ _ _ _ _ _ _ _ _ _ _ _ _ _ _ _ _ _ _ _)
      iexists _; iexact H5
    · rw [Phi_castSucc m c t, PhiS_pos m c t hz]
      iintro ⟨⟨HS, Hg⟩, Ho, ⟨%d0, H0⟩, ⟨%d1, H1⟩, ⟨%d2, H2⟩, ⟨%d3, H3⟩, ⟨%d4, H4⟩, ⟨%d5, H5⟩⟩
      iapply ((runA c (grid0.coords t) _ _ _ _ _ _ _ _ _ _ (ms5 t) (hs5 t) _ _ ((isFirst_iff t).mpr h0) (fun h => h1 ((isLater_iff t).mp h)) (fun h => h1 ((isLast_iff t).mp h)) (iblk m c 0 t) (iblk m c 1 t) (iblk m c 2 t) (iblk m c 3 t)).2 Set.univ _)
      isplitl [H0]; · iexact H0
      isplitl [H1]; · iexact H1
      isplitl [H2]; · iexact H2
      isplitl [H3]; · iexact H3
      isplitl [H4]; · iexists _; iexact H4
      isplitl [HS]; · iexists _; iexact HS
      iintro ⟨H0, H1, H2, H3, ⟨%e4, H4⟩, ⟨%es, HS⟩⟩
      isplitl [HS Hg]
      · isplitl [HS]
        · unfold owns; iexists _; isplitr
          swap; · iexact HS
          ipureintro; exact (View.read_writes_eq_canon _ _ _ (coverA_row c _ _ _ _ _ _ _ _ _ _ _ _ _ _ _ _ _ _ _ _ _ _)).trans (rowA_eq c _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact (View.read_writes_eq_canon _ _ _ (coverA_cell c _ _ _ _ _ _ _ _ _ _ _ _ _ _ _ _ _ _ _ _ _ _)).trans (cellA_eq c _ _ _ _ _ _ _ _ _ _ _ _ _ _ _ _ _ _ _ _ _ _)
      iexists _; iexact H5
  · have h1 : t.val % 2 = 1 := by omega
    have hz : t.val ≠ 0 := by omega
    rw [show (dats m 0 c).leavesExact 5 t = owns (c : Thread nD τ) (ms5 t) fullShare ((dats m 0 c).after 5 t) from by
      unfold Dat.leavesExact; rw [Bool.eq_false_iff.mpr fun h' => h0 ((idle5_iff t).mp h')], after5]
    unfold cell2At
    rw [cellAt_odd m c t h0, rowAt_odd m c t h0]
    simp only [before4_odd m c t h1]
    rw [Phi_castSucc m c t, PhiS_pos m c t hz, rowAt_even m c (prevPt t) (by show (t.val - 1) % 2 = 0; omega)]
    iintro ⟨⟨HS, Hg⟩, Ho, ⟨%d0, H0⟩, ⟨%d1, H1⟩, ⟨%d2, H2⟩, ⟨%d3, H3⟩, ⟨%d4, H4⟩, ⟨%d5, H5⟩⟩
    iapply ((runB c (grid0.coords t) _ _ _ _ _ _ _ _ _ _ _ _ _ _ (fun h => h0 ((isFirst_iff t).mp h)) ((isLater_iff t).mpr h1) ((isLast_iff t).mpr h1) (iblk m c 0 t) (iblk m c 1 t) (iblk m c 2 t) (iblk m c 3 t) (halfSum m c (prevPt t)) (halfMin m c (prevPt t))).2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, ⟨%e4, H4⟩, ⟨%e5, H5⟩, ⟨%es, HS⟩⟩
    isplitl [HS Hg]
    · isplitl [HS]
      · unfold owns; iexists _; isplitr
        swap; · iexact HS
        ipureintro; exact (View.read_writes_eq_canon _ _ _ (coverB_row c _ _ _ _ _ _ _ _ _ _ _ _ _ _ _ _ _ _ _ _ _ _ _ _)).trans (rowB_eq c _ _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact (View.read_writes_eq_canon _ _ _ (coverB_cell c _ _ _ _ _ _ _ _ _ _ _ _ _ _ _ _ _ _ _ _ _ _ _ _)).trans (cellB_eq c _ _ _ _ _ _ _ _ _ _ _ _ _ _ _ _ _ _ _ _ _ _ _ _)
    unfold owns; iexists _; isplitr
    swap; · iexact H5
    ipureintro; exact (View.read_writes_eq_canon _ _ _ (coverB_cell2 c _ _ _ _ _ _ _ _ _ _ _ _ _ _ _ _ _ _ _ _ _ _ _ _)).trans (cell2B_eq c _ _ _ _ _ _ _ _ _ _ _ _ _ _ _ _ _ _ _ _ _ _ _ _)

/-- The body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives it back, the scratch row's contents forgotten. -/
theorem hout (c : Dev nD) : (dats m 0 c).Φ (Fin.last cfg0.N) ⊢ Pipeline.ΦA spec0 c := by
  have hN : cfg0.N = 8 := N_0
  rw [show (dats m 0 c).Φ (Fin.last cfg0.N) = PhiS m c (7 + 1) (by omega) from by dsimp only [dats]; simp only [Fin.val_last, hN], PhiS_succ, PhiA_eq]
  iintro ⟨HS, Hg⟩
  isplitl [HS]
  · iexists _; iexact HS
  iexact Hg

/-! ## The run and the frame -/

set_option backward.isDefEq.respectTransparency.types false in
/-- Every weakly fair execution of @main terminates; at the end each windowed array holds what the write-backs of the
    proof data left in it, and every other unscoped buffer what the host operations after the region computed. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: @main terminates without a fault and its two argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Body

end
-- ==== Proof.IdealHost.lean ====
/-
  The host operations around the chamfer kernel's region, as pure functions of the two clouds, and what the four
  operand arrays hold when the region starts.

  Before the region: the first operand is −2·x; the second the squared norm of each point of x, as a column; the third
  y with its last two axes exchanged; the fourth the squared norm of each point of y, as a row.  After it: each of the
  two result columns is summed over the four clouds and scaled by 2⁻¹⁴, and the two are added.
-/
import Idealize.ShloMosaic.Lib.StableHlo.Run
import proofs.«149844_g4922032521243_cont_8to1_c_580_16_alg».proof.Proof.IdealFrame

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- −2·x. -/
def uOf (x : FVec F S4x4096x3 .f32) : FVec F S4x4096x3 .f32 :=
  mulf (broadcastInDim S4x4096x3 ![] Facts₀.bcast_S_S4x4096x3 (constant (F := F) S_ .f32 0xC0000000#32)) x
/-- Each point's squared norm, as a last axis of extent one. -/
def sqColOf (x : FVec F S4x4096x3 .f32) : FVec F S4x4096x1 .f32 :=
  broadcastInDim S4x4096x1 ![0, 1] Facts₀.bcast_S4x4096_S4x4096x1_0_1
    (Host.reduceAdd (mulf x x) (constant (F := F) S_ .f32 0x00000000#32) Facts₀.reducesTo_S4x4096x3_S4x4096_d2 Facts₀.h_S_)
/-- y with points and coordinates exchanged. -/
def trOf (y : FVec F S4x4096x3 .f32) : FVec F S4x3x4096 .f32 :=
  transpose S4x3x4096 [0, 2, 1] y Facts₀.transposes_S4x4096x3_S4x3x4096_0_2_1
/-- Each point's squared norm, as a middle axis of extent one. -/
def sqRowOf (y : FVec F S4x4096x3 .f32) : FVec F S4x1x4096 .f32 :=
  broadcastInDim S4x1x4096 ![0, 2] Facts₀.bcast_S4x4096_S4x1x4096_0_2
    (Host.reduceAdd (mulf y y) (constant (F := F) S_ .f32 0x00000000#32) Facts₀.reducesTo_S4x4096x3_S4x4096_d2 Facts₀.h_S_)
/-- The host operations after the region, of the two result columns. -/
def tailOf (a b : FVec F S4x1x1 .f32) : FVec F S_ .f32 :=
  addf (mulf (Host.reduceAdd a (constant (F := F) S_ .f32 0x00000000#32) Facts₀.reducesTo_S4x1x1_S_d0_1_2 Facts₀.h_S_) (constant (F := F) S_ .f32 0x38800000#32))
    (mulf (Host.reduceAdd b (constant (F := F) S_ .f32 0x00000000#32) Facts₀.reducesTo_S4x1x1_S_d0_1_2 Facts₀.h_S_) (constant (F := F) S_ .f32 0x38800000#32))

variable (m : (ℓ : Loc nD τ sig) → Buf (Elt F) ℓ)

/-- The region finds its first operand at −2·x. -/
theorem V_u (c : Dev nD) : (V m c main_call0_v1 : S4x4096x3.Idx → Elt F .f32) = uOf (m ((c : Thread nD τ).loc main_arg0)) := by
  show StableHlo.after hostOps0 (fun b => m (c, b)) (Proc.devRef .tc main_call0_v1) = _
  after_results; rfl
/-- Its second at the squared norms of x. -/
theorem V_sqCol (c : Dev nD) : (V m c main_call0_v4 : S4x4096x1.Idx → Elt F .f32) = sqColOf (m ((c : Thread nD τ).loc main_arg0)) := by
  show StableHlo.after hostOps0 (fun b => m (c, b)) (Proc.devRef .tc main_call0_v4) = _
  after_results; rfl
/-- Its third at y exchanged. -/
theorem V_tr (c : Dev nD) : (V m c main_call0_v5 : S4x3x4096.Idx → Elt F .f32) = trOf (m ((c : Thread nD τ).loc main_arg1)) := by
  show StableHlo.after hostOps0 (fun b => m (c, b)) (Proc.devRef .tc main_call0_v5) = _
  after_results; rfl
/-- Its fourth at the squared norms of y. -/
theorem V_sqRow (c : Dev nD) : (V m c main_call0_v8 : S4x1x4096.Idx → Elt F .f32) = sqRowOf (m ((c : Thread nD τ).loc main_arg1)) := by
  show StableHlo.after hostOps0 (fun b => m (c, b)) (Proc.devRef .tc main_call0_v8) = _
  after_results; rfl

end Cert.KernelIdeal.Body

end
-- ==== Proof.IdealHostRead.lean ====
/-
  The host operations around the region, read at an index over the extended reals: the four operand arrays as
  functions of the two clouds' coordinates, and the operations after the region as two sums over the four clouds.
-/
import proofs.«149844_g4922032521243_cont_8to1_c_580_16_alg».proof.Proof.IdealHost
import proofs.«149844_g4922032521243_cont_8to1_c_580_16_alg».proof.Proof.Spec
import Idealize.ShloMosaic.Lib.ValueIdx
import Idealize.ShloMosaic.Lib.ValueLayout
import Idealize.ShloMosaic.Lib.Pipeline.Value
import Idealize.ShloMosaic.PureOps.Ideal
import Idealize.ShloMosaic.PureOps.Ideal.Laws
import Idealize.ShloMosaic.PureOps.Reduce

noncomputable section

namespace Cert.KernelIdeal.HostRead

open Cert.KernelIdeal Cert.KernelIdeal.Body Idealize.ShloMosaic Idealize.ShloMosaic.ValueIdx

/-- The first operand at (b, n, k) is −2 times the coordinate. -/
theorem uOf_apply (x : FVec Ideal S4x4096x3 .f32) (b : Fin 4) (n : Fin 4096) (k : Fin 3) :
    uOf (F := Ideal) x (ix3 b n k) = Ideal.ofBits .f32 0xC0000000#32 * x (ix3 b n k) := rfl

/-- Dropping the coordinate axis of a cloud. -/
theorem reduces_coord : S4x4096x3.Reduces [2] S4x4096 := by decide

/-- Point (b, n) with coordinate `k` put back is (b, n, k). -/
theorem lift_coord (b : Fin 4) (n : Fin 4096) (k : Fin (S4x4096x3.size 2)) :
    reduces_coord.lift (ix2 b n) k = ix3 b n (⟨k.val, k.isLt⟩ : Fin 3) := by
  funext c; apply Fin.ext
  fin_cases c <;> rfl

/-- The host's sum over the coordinate axis from the zero word, at point (b, n), is the sum over the three coordinates. -/
theorem coordSum (z : FVec Ideal S4x4096x3 .f32) (b : Fin 4) (n : Fin 4096) :
    Host.reduceAdd (F := Ideal) z (constant (F := Ideal) S_ .f32 0x00000000#32) Facts₀.reducesTo_S4x4096x3_S4x4096_d2
        Facts₀.h_S_ (ix2 b n)
      = ∑ k : Fin 3, z (ix3 b n k) := by
  refine (Ideal.hostReduceAdd_single (s := S4x4096x3) (t := S4x4096) (a := (2 : Fin 3))
    Facts₀.reducesTo_S4x4096x3_S4x4096_d2 reduces_coord z _ (ix2 b n)).trans ?_
  rw [show (constant (F := Ideal) S_ .f32 0x00000000#32) (Shape.Idx.first Facts₀.h_S_) = Ideal.ofBits .f32 0x00000000#32
    from rfl, Ideal.ofBits_zero_f32, zero_add]
  exact Finset.sum_congr rfl fun k _ => congrArg z (lift_coord b n k)

/-- The second operand at (b, n, 0) is the squared norm of point n of cloud b of x. -/
theorem sqColOf_apply (x : FVec Ideal S4x4096x3 .f32) (b : Fin 4) (n : Fin 4096) :
    sqColOf (F := Ideal) x (ix3 b n (0 : Fin 1)) = ∑ k : Fin 3, x (ix3 b n k) * x (ix3 b n k) := by
  unfold sqColOf
  refine (broadcastInDim_apply _ Facts₀.bcast_S4x4096_S4x4096x1_0_1 _ (ix3 b n (0 : Fin 1)) (ix2 b n) (fun a => match a with
    | ⟨0, _⟩ => by show b.val = if (4 : Nat) = 1 then 0 else b.val; rw [if_neg (by decide)]
    | ⟨1, _⟩ => by show n.val = if (4096 : Nat) = 1 then 0 else n.val; rw [if_neg (by decide)])).trans ?_
  exact coordSum (mulf x x) b n

/-- The third operand at (b, k, m) is coordinate k of point m of cloud b of y. -/
theorem trOf_apply (y : FVec Ideal S4x4096x3 .f32) (b : Fin 4) (k : Fin 3) (mm : Fin 4096) :
    trOf (F := Ideal) y (ix3 b k mm) = y (ix3 b mm k) := by
  unfold trOf
  exact transpose_ix3_021_apply y Facts₀.transposes_S4x4096x3_S4x3x4096_0_2_1 b k mm

/-- The fourth operand at (b, 0, m) is the squared norm of point m of cloud b of y. -/
theorem sqRowOf_apply (y : FVec Ideal S4x4096x3 .f32) (b : Fin 4) (mm : Fin 4096) :
    sqRowOf (F := Ideal) y (ix3 b (0 : Fin 1) mm) = ∑ k : Fin 3, y (ix3 b mm k) * y (ix3 b mm k) := by
  unfold sqRowOf
  refine (broadcastInDim_apply _ Facts₀.bcast_S4x4096_S4x1x4096_0_2 _ (ix3 b (0 : Fin 1) mm) (ix2 b mm) (fun a => match a with
    | ⟨0, _⟩ => by show b.val = if (4 : Nat) = 1 then 0 else b.val; rw [if_neg (by decide)]
    | ⟨1, _⟩ => by show mm.val = if (4096 : Nat) = 1 then 0 else mm.val; rw [if_neg (by decide)])).trans ?_
  exact coordSum (mulf y y) b mm

/-- A column of four entries, one per cloud: its indices are the clouds. -/
def colEquiv : S4x1x1.Idx ≃ Fin 4 where
  toFun j := j 0
  invFun b := ix3 b (0 : Fin 1) (0 : Fin 1)
  left_inv j := by
    funext a
    match a with
    | ⟨0, _⟩ => rfl
    | ⟨1, _⟩ => exact Fin.ext (Nat.lt_one_iff.1 (j 1).isLt).symm
    | ⟨2, _⟩ => exact Fin.ext (Nat.lt_one_iff.1 (j 2).isLt).symm
  right_inv _ := rfl

/-- The host's sum of such a column over all its axes, from the zero word, is the sum over the four clouds. -/
theorem colSum (a : FVec Ideal S4x1x1 .f32) (i : S_.Idx) :
    Host.reduceAdd (F := Ideal) a (constant (F := Ideal) S_ .f32 0x00000000#32) Facts₀.reducesTo_S4x1x1_S_d0_1_2
        Facts₀.h_S_ i
      = ∑ b : Fin 4, a (ix3 b (0 : Fin 1) (0 : Fin 1)) := by
  refine (Ideal.hostReduceAdd_total (s := S4x1x1) (t := S_) Facts₀.reducesTo_S4x1x1_S_d0_1_2 (fun b => b.elim0) a _ i).trans ?_
  rw [show (constant (F := Ideal) S_ .f32 0x00000000#32) (Shape.Idx.first Facts₀.h_S_) = Ideal.ofBits .f32 0x00000000#32
    from rfl, Ideal.ofBits_zero_f32, zero_add]
  exact (Equiv.sum_comp colEquiv.symm a).symm

/-- The operations after the region: each column summed over the clouds and scaled by the 2⁻¹⁴ word, the two added. -/
theorem tailOf_eq (a b' : FVec Ideal S4x1x1 .f32) :
    tailOf (F := Ideal) a b' = fun _ =>
      (∑ b : Fin 4, a (ix3 b (0 : Fin 1) (0 : Fin 1))) * Ideal.ofBits .f32 0x38800000#32
        + (∑ b : Fin 4, b' (ix3 b (0 : Fin 1) (0 : Fin 1))) * Ideal.ofBits .f32 0x38800000#32 := by
  funext i
  unfold tailOf
  rw [addf_apply, mulf_apply, mulf_apply, constant_apply, colSum, colSum]

end Cert.KernelIdeal.HostRead

end
-- ==== Proof.IdealFinal.lean ====
/-
  The two result columns of the chamfer kernel after its run, and the loss the host operations compute from them.

  Each column has one row per cloud; row b is written back once, after the second half of cloud b, with what that
  point left in the window's cell.  The host operations after the region then sum each column, scale by 2⁻¹⁴ and add.
-/
import Idealize.ShloMosaic.Lib.Pipeline.Value
import Idealize.ShloMosaic.Lib.ValueIdx
import proofs.«149844_g4922032521243_cont_8to1_c_580_16_alg».proof.Proof.IdealHost

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-- The odd point of cloud `b`: its second half. -/
def oddPt (b : Fin 4) : Fin cfg0.N := ⟨2 * b.val + 1, by have := b.isLt; rw [show cfg0.N = 8 from N_0]; omega⟩

/-- Window 4's block index at a point: the cloud's number on the first axis. -/
theorem idx4 : ∀ t : Fin cfg0.N, win0_4.index t (0 : Fin 3) = t.val / 2 ∧ win0_4.index t (1 : Fin 3) = 0 ∧ win0_4.index t (2 : Fin 3) = 0 :=
  (by decide +kernel : ∀ t : Fin grid0.N, _)

/-- The first result column after the run: row b holds what the odd point of cloud b left in the cell. -/
def G4 (c : Dev nD) : S4x1x1.Idx → Elt F .f32 := fun j => cellAt m c (oddPt ⟨(j 0).val, (j 0).isLt⟩) (ix3 0 0 0)

/-- What an odd point writes back is its row of that column. -/
theorem flushed4_eq (c : Dev nD) (t : Fin cfg0.N) (hf : (cfg0.win 4).flush t = true) :
    (dats m 0 c).flushed 4 t = ((cfg0.win 4).blk t).view.read (Elt F) (G4 m c) := by
  have h1 : t.val % 2 = 1 := (flush0_4 t).mp hf
  have hN : t.val < 8 := lt_of_lt_of_eq t.isLt (show cfg0.N = 8 from N_0)
  show (cfg0.win 4).cut (grid0.coords t) ((dats m 0 c).after 4 t) = _
  rw [after4]
  obtain ⟨e0, e1, e2⟩ := idx4 t
  funext y
  have hy : y = ix3 0 0 0 := funext fun a => Fin.ext (by
    match a with
    | ⟨0, _⟩ => have h : (y 0).val < 1 := (y 0).isLt; show (y 0).val = 0; omega
    | ⟨1, _⟩ => have h : (y 1).val < 1 := (y 1).isLt; show (y 1).val = 0; omega
    | ⟨2, _⟩ => have h : (y 2).val < 1 := (y 2).isLt; show (y 2).val = 0; omega)
  have key : ∀ b : Fin 4, b.val = t.val / 2 → cellAt m c t y = cellAt m c (oddPt b) (ix3 0 0 0) := by
    intro b hb
    have hb' : oddPt b = t := Fin.ext (by show 2 * b.val + 1 = t.val; omega)
    rw [hb', hy]
  refine key _ ?_
  have h : (y 0).val < 1 := (y 0).isLt
  show win0_4.index t (0 : Fin 3) * 1 + 1 * (y 0).val = t.val / 2
  omega

/-- An index of the column is in a point's block iff each coordinate is in the block's range. -/
theorem mem_blk4 (t : Fin cfg0.N) (i : S4x1x1.Idx) :
    i ∈ ((cfg0.win 4).blk t).view.set ↔ ∀ a : Fin 3, win0_4.index t a * S1x1x1.size a ≤ (i a).val ∧ (i a).val < win0_4.index t a * S1x1x1.size a + S1x1x1.size a := by
  show i ∈ ((View.whole main_call0_v9_0).slice (win0_4.rect t)).set ↔ _
  rw [View.set_slice_whole, Rect.mem_set_unit]
  exact Iff.rfl

/-- Every row of the column is written back by the odd point of its cloud. -/
theorem cover4 (i : S4x1x1.Idx) : ∃ t : Fin cfg0.N, (cfg0.win 4).flush t = true ∧ i ∈ ((cfg0.win 4).blk t).view.set := by
  have hi0 : (i 0).val < 4 := (i 0).isLt
  have hi1 : (i 1).val < 1 := (i 1).isLt
  have hi2 : (i 2).val < 1 := (i 2).isLt
  refine ⟨oddPt ⟨(i 0).val, hi0⟩, (flush0_4 _).mpr (by show (2 * (i 0).val + 1) % 2 = 1; omega), ?_⟩
  rw [mem_blk4]
  obtain ⟨e0, e1, e2⟩ := idx4 (oddPt ⟨(i 0).val, hi0⟩)
  have e0' : win0_4.index (oddPt ⟨(i 0).val, hi0⟩) (0 : Fin 3) = (2 * (i 0).val + 1) / 2 := e0
  intro a
  match a with
  | ⟨0, _⟩ => show win0_4.index _ (0 : Fin 3) * 1 ≤ (i 0).val ∧ (i 0).val < win0_4.index _ (0 : Fin 3) * 1 + 1; omega
  | ⟨1, _⟩ => show win0_4.index _ (1 : Fin 3) * 1 ≤ (i 1).val ∧ (i 1).val < win0_4.index _ (1 : Fin 3) * 1 + 1; omega
  | ⟨2, _⟩ => show win0_4.index _ (2 : Fin 3) * 1 ≤ (i 2).val ∧ (i 2).val < win0_4.index _ (2 : Fin 3) * 1 + 1; omega

/-- The first result column after the run. -/
theorem final4 (c : Dev nD) : (dats m 0 c).arrAt 4 cfg0.N = G4 m c :=
  (dats m 0 c).arrAt_eq_of_cover 4 (G4 m c) (fun t hf => flushed4_eq m c t hf) (cover4)

/-- Window 5's block index at a point: the cloud's number on the first axis. -/
theorem idx5 : ∀ t : Fin cfg0.N, win0_5.index t (0 : Fin 3) = t.val / 2 ∧ win0_5.index t (1 : Fin 3) = 0 ∧ win0_5.index t (2 : Fin 3) = 0 :=
  (by decide +kernel : ∀ t : Fin grid0.N, _)

/-- The second result column after the run: row b holds what the odd point of cloud b left in the cell. -/
def G5 (c : Dev nD) : S4x1x1.Idx → Elt F .f32 := fun j => cell2At m c (oddPt ⟨(j 0).val, (j 0).isLt⟩) (ix3 0 0 0)

/-- What an odd point writes back is its row of that column. -/
theorem flushed5_eq (c : Dev nD) (t : Fin cfg0.N) (hf : (cfg0.win 5).flush t = true) :
    (dats m 0 c).flushed 5 t = ((cfg0.win 5).blk t).view.read (Elt F) (G5 m c) := by
  have h1 : t.val % 2 = 1 := (flush0_5 t).mp hf
  have hN : t.val < 8 := lt_of_lt_of_eq t.isLt (show cfg0.N = 8 from N_0)
  show (cfg0.win 5).cut (grid0.coords t) ((dats m 0 c).after 5 t) = _
  rw [after5]
  obtain ⟨e0, e1, e2⟩ := idx5 t
  funext y
  have hy : y = ix3 0 0 0 := funext fun a => Fin.ext (by
    match a with
    | ⟨0, _⟩ => have h : (y 0).val < 1 := (y 0).isLt; show (y 0).val = 0; omega
    | ⟨1, _⟩ => have h : (y 1).val < 1 := (y 1).isLt; show (y 1).val = 0; omega
    | ⟨2, _⟩ => have h : (y 2).val < 1 := (y 2).isLt; show (y 2).val = 0; omega)
  have key : ∀ b : Fin 4, b.val = t.val / 2 → cell2At m c t y = cell2At m c (oddPt b) (ix3 0 0 0) := by
    intro b hb
    have hb' : oddPt b = t := Fin.ext (by show 2 * b.val + 1 = t.val; omega)
    rw [hb', hy]
  refine key _ ?_
  have h : (y 0).val < 1 := (y 0).isLt
  show win0_5.index t (0 : Fin 3) * 1 + 1 * (y 0).val = t.val / 2
  omega

/-- An index of the column is in a point's block iff each coordinate is in the block's range. -/
theorem mem_blk5 (t : Fin cfg0.N) (i : S4x1x1.Idx) :
    i ∈ ((cfg0.win 5).blk t).view.set ↔ ∀ a : Fin 3, win0_5.index t a * S1x1x1.size a ≤ (i a).val ∧ (i a).val < win0_5.index t a * S1x1x1.size a + S1x1x1.size a := by
  show i ∈ ((View.whole main_call0_v9_1).slice (win0_5.rect t)).set ↔ _
  rw [View.set_slice_whole, Rect.mem_set_unit]
  exact Iff.rfl

/-- Every row of the column is written back by the odd point of its cloud. -/
theorem cover5 (i : S4x1x1.Idx) : ∃ t : Fin cfg0.N, (cfg0.win 5).flush t = true ∧ i ∈ ((cfg0.win 5).blk t).view.set := by
  have hi0 : (i 0).val < 4 := (i 0).isLt
  have hi1 : (i 1).val < 1 := (i 1).isLt
  have hi2 : (i 2).val < 1 := (i 2).isLt
  refine ⟨oddPt ⟨(i 0).val, hi0⟩, (flush0_5 _).mpr (by show (2 * (i 0).val + 1) % 2 = 1; omega), ?_⟩
  rw [mem_blk5]
  obtain ⟨e0, e1, e2⟩ := idx5 (oddPt ⟨(i 0).val, hi0⟩)
  have e0' : win0_5.index (oddPt ⟨(i 0).val, hi0⟩) (0 : Fin 3) = (2 * (i 0).val + 1) / 2 := e0
  intro a
  match a with
  | ⟨0, _⟩ => show win0_5.index _ (0 : Fin 3) * 1 ≤ (i 0).val ∧ (i 0).val < win0_5.index _ (0 : Fin 3) * 1 + 1; omega
  | ⟨1, _⟩ => show win0_5.index _ (1 : Fin 3) * 1 ≤ (i 1).val ∧ (i 1).val < win0_5.index _ (1 : Fin 3) * 1 + 1; omega
  | ⟨2, _⟩ => show win0_5.index _ (2 : Fin 3) * 1 ≤ (i 2).val ∧ (i 2).val < win0_5.index _ (2 : Fin 3) * 1 + 1; omega

/-- The second result column after the run. -/
theorem final5 (c : Dev nD) : (dats m 0 c).arrAt 5 cfg0.N = G5 m c :=
  (dats m 0 c).arrAt_eq_of_cover 5 (G5 m c) (fun t hf => flushed5_eq m c t hf) (cover5)

/-- What @main's result buffer holds after the host operations that follow the region. -/
theorem result_eq (c : Dev nD) :
    (Pipeline.afterTail₀ cfgs (dats m) 0 (V0 m) [hostOps1] c main_v0 : S_.Idx → Elt F .f32) = tailOf (G4 m c) (G5 m c) := by
  unfold Pipeline.afterTail₀
  show StableHlo.after hostOps1 _ (Proc.devRef .tc main_v0) = _
  after_results
  have e4 : (Pipeline.withArrays (cfgs 0).spec c (V0 m c) (fun w => (dats m 0 c).arrAt w (cfgs 0).N) (Proc.devRef .tc main_call0_v9_0) : S4x1x1.Idx → Elt F .f32) = G4 m c :=
    (Pipeline.withArrays_arr spec0 launch0.win.arr_inj c _ _ 4).trans (final4 m c)
  have e5 : (Pipeline.withArrays (cfgs 0).spec c (V0 m c) (fun w => (dats m 0 c).arrAt w (cfgs 0).N) (Proc.devRef .tc main_call0_v9_1) : S4x1x1.Idx → Elt F .f32) = G5 m c :=
    (Pipeline.withArrays_arr spec0 launch0.win.arr_inj c _ _ 5).trans (final5 m c)
  show tailOf (Pipeline.withArrays (cfgs 0).spec c (V0 m c) (fun w => (dats m 0 c).arrAt w (cfgs 0).N) (Proc.devRef .tc main_call0_v9_0))
    (Pipeline.withArrays (cfgs 0).spec c (V0 m c) (fun w => (dats m 0 c).arrAt w (cfgs 0).N) (Proc.devRef .tc main_call0_v9_1)) = _
  rw [e4, e5]

/-- The kernel program's run, with its result named: every weakly fair execution of @main terminates with the result
    buffer at the host tail of the two columns, and the two argument arrays as they began. -/
theorem run_value : θ_run defs (onTc (τ := τ) (main (F := F))) ⟨m, fun _ => 0, ρ⟩ (fun r => ∀ c : Dev nD,
      r.2.mem ((c.tc : Thread nD τ).loc main_v0) = tailOf (G4 m c) (G5 m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨((h c).2 main_v0 (Pipeline.mem_restRefs_of main_v0 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Body

end
-- ==== Proof.IdealBlocks.lean ====
/-
  The blocks the chamfer kernel's body is handed at a grid point, read off the operand arrays.

  Point t = 2b + i is cloud b, half i.  The first two windows hand the body rows i·2048 … i·2048 + 2047 of cloud b of
  their arrays; the last two hand it all of cloud b.
-/
import Idealize.ShloMosaic.Lib.ValueIdx
import proofs.«149844_g4922032521243_cont_8to1_c_580_16_alg».proof.Proof.Spec
import proofs.«149844_g4922032521243_cont_8to1_c_580_16_alg».proof.Proof.IdealFinal

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

/-- The cloud a point works on. -/
def cloudOf (t : Fin cfg0.N) : Fin 4 := ⟨t.val / 2, by have := lt_of_lt_of_eq t.isLt (show cfg0.N = 8 from N_0); omega⟩
/-- The half of the rows a point works on. -/
def halfOf (t : Fin cfg0.N) : Fin 2 := ⟨t.val % 2, by omega⟩

/-- The four input windows' block indices at a point. -/
theorem idxIn : ∀ t : Fin cfg0.N,
    (win0_0.index t (0 : Fin 3) = t.val / 2 ∧ win0_0.index t (1 : Fin 3) = t.val % 2 ∧ win0_0.index t (2 : Fin 3) = 0)
    ∧ (win0_1.index t (0 : Fin 3) = t.val / 2 ∧ win0_1.index t (1 : Fin 3) = t.val % 2 ∧ win0_1.index t (2 : Fin 3) = 0)
    ∧ (win0_2.index t (0 : Fin 3) = t.val / 2 ∧ win0_2.index t (1 : Fin 3) = 0 ∧ win0_2.index t (2 : Fin 3) = 0)
    ∧ (win0_3.index t (0 : Fin 3) = t.val / 2 ∧ win0_3.index t (1 : Fin 3) = 0 ∧ win0_3.index t (2 : Fin 3) = 0) :=
  (by decide +kernel : ∀ t : Fin grid0.N, _)

/-- The first window's block: rows of −2·x. -/
theorem blk0_apply (c : Dev nD) (t : Fin cfg0.N) (r : Fin 2048) (k : Fin 3) :
    (iblk m c 0 t : S1x2048x3.Idx → Elt F .f32) (ix3 0 r k)
      = (V m c main_call0_v1 : S4x4096x3.Idx → Elt F .f32) (ix3 (cloudOf t) (Cert.Chamfer.row (halfOf t) r) k) := by
  obtain ⟨⟨e0, e1, e2⟩, -, -, -⟩ := idxIn t
  show (V m c main_call0_v1 : S4x4096x3.Idx → Elt F .f32) (((cfg0.win 0).blk t).view.emb (ix3 0 r k)) = _
  refine congrArg _ (funext fun a => Fin.ext ?_)
  match a with
  | ⟨0, _⟩ => show win0_0.index t (0 : Fin 3) * 1 + 1 * 0 = t.val / 2; omega
  | ⟨1, _⟩ => show win0_0.index t (1 : Fin 3) * 2048 + 1 * r.val = t.val % 2 * 2048 + r.val; omega
  | ⟨2, _⟩ => show win0_0.index t (2 : Fin 3) * 3 + 1 * k.val = k.val; omega

/-- The second window's block: rows of the squared norms of x. -/
theorem blk1_apply (c : Dev nD) (t : Fin cfg0.N) (r : Fin 2048) :
    (iblk m c 1 t : S1x2048x1.Idx → Elt F .f32) (ix3 0 r 0)
      = (V m c main_call0_v4 : S4x4096x1.Idx → Elt F .f32) (ix3 (cloudOf t) (Cert.Chamfer.row (halfOf t) r) 0) := by
  obtain ⟨-, ⟨e0, e1, e2⟩, -, -⟩ := idxIn t
  show (V m c main_call0_v4 : S4x4096x1.Idx → Elt F .f32) (((cfg0.win 1).blk t).view.emb (ix3 0 r 0)) = _
  refine congrArg _ (funext fun a => Fin.ext ?_)
  match a with
  | ⟨0, _⟩ => show win0_1.index t (0 : Fin 3) * 1 + 1 * 0 = t.val / 2; omega
  | ⟨1, _⟩ => show win0_1.index t (1 : Fin 3) * 2048 + 1 * r.val = t.val % 2 * 2048 + r.val; omega
  | ⟨2, _⟩ => show win0_1.index t (2 : Fin 3) * 1 + 1 * 0 = 0; omega

/-- The third window's block: cloud b of y, coordinates first. -/
theorem blk2_apply (c : Dev nD) (t : Fin cfg0.N) (k : Fin 3) (mm : Fin 4096) :
    (iblk m c 2 t : S1x3x4096.Idx → Elt F .f32) (ix3 0 k mm)
      = (V m c main_call0_v5 : S4x3x4096.Idx → Elt F .f32) (ix3 (cloudOf t) k mm) := by
  obtain ⟨-, -, ⟨e0, e1, e2⟩, -⟩ := idxIn t
  show (V m c main_call0_v5 : S4x3x4096.Idx → Elt F .f32) (((cfg0.win 2).blk t).view.emb (ix3 0 k mm)) = _
  refine congrArg _ (funext fun a => Fin.ext ?_)
  match a with
  | ⟨0, _⟩ => show win0_2.index t (0 : Fin 3) * 1 + 1 * 0 = t.val / 2; omega
  | ⟨1, _⟩ => show win0_2.index t (1 : Fin 3) * 3 + 1 * k.val = k.val; omega
  | ⟨2, _⟩ => show win0_2.index t (2 : Fin 3) * 4096 + 1 * mm.val = mm.val; omega

/-- The fourth window's block: cloud b of the squared norms of y. -/
theorem blk3_apply (c : Dev nD) (t : Fin cfg0.N) (mm : Fin 4096) :
    (iblk m c 3 t : S1x1x4096.Idx → Elt F .f32) (ix3 0 0 mm)
      = (V m c main_call0_v8 : S4x1x4096.Idx → Elt F .f32) (ix3 (cloudOf t) 0 mm) := by
  obtain ⟨-, -, -, ⟨e0, e1, e2⟩⟩ := idxIn t
  show (V m c main_call0_v8 : S4x1x4096.Idx → Elt F .f32) (((cfg0.win 3).blk t).view.emb (ix3 0 0 mm)) = _
  refine congrArg _ (funext fun a => Fin.ext ?_)
  match a with
  | ⟨0, _⟩ => show win0_3.index t (0 : Fin 3) * 1 + 1 * 0 = t.val / 2; omega
  | ⟨1, _⟩ => show win0_3.index t (1 : Fin 3) * 1 + 1 * 0 = 0; omega
  | ⟨2, _⟩ => show win0_3.index t (2 : Fin 3) * 4096 + 1 * mm.val = mm.val; omega

end Cert.KernelIdeal.Body

end
-- ==== Proof.IdealLoss.lean ====
/-
  The chamfer kernel's result over the extended reals is the blocked chamfer loss of its two arguments.

  At point 2b + i the body's distance block is the expanded squared distance of rows i·2048 … of cloud b of x against
  all of cloud b of y.  So after the odd point of cloud b the first cell holds the two halves' sums of row minima and
  the second the sum over the columns of the two halves' column minima joined; the host operations that follow sum
  the clouds and scale.
-/
import Idealize.ShloMosaic.Lib.ValueIdx
import proofs.«149844_g4922032521243_cont_8to1_c_580_16_alg».proof.Proof.IdealPay
import proofs.«149844_g4922032521243_cont_8to1_c_580_16_alg».proof.Proof.IdealPayCol
import proofs.«149844_g4922032521243_cont_8to1_c_580_16_alg».proof.Proof.IdealHostRead
import proofs.«149844_g4922032521243_cont_8to1_c_580_16_alg».proof.Proof.IdealBlocks

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.Chamfer Cert.KernelIdeal.Pay Cert.KernelIdeal.PayCol Cert.KernelIdeal.HostRead

variable (m : (ℓ : Loc nD τ sig) → Buf (Elt Ideal) ℓ)

/-- The first cloud array as launched. -/
abbrev X (c : Dev nD) : Pts.Idx → EReal := m ((c : Thread nD τ).loc main_arg0)
/-- The second. -/
abbrev Y (c : Dev nD) : Pts.Idx → EReal := m ((c : Thread nD τ).loc main_arg1)

/-- The distance block at a point is the expanded squared distance of its half's rows. -/
theorem dBlk_at (c : Dev nD) (t : Fin cfg0.N) (r : Fin 2048) (mm : Fin 4096) :
    dBlk (iblk m c 0 t) (iblk m c 1 t) (iblk m c 2 t) (iblk m c 3 t) r mm
      = sqdK (X m c) (Y m c) (cloudOf t) (row (halfOf t) r) mm := by
  unfold dBlk sqdK
  simp only [blk0_apply, blk1_apply, blk2_apply, blk3_apply]
  rw [V_u, V_tr, V_sqCol, V_sqRow]
  simp only [uOf_apply, trOf_apply, sqColOf_apply, sqRowOf_apply]

/-- A half's row sum. -/
theorem halfSum_eq (c : Dev nD) (t : Fin cfg0.N) :
    halfSum m c t = fun _ => rowSum (X m c) (Y m c) (cloudOf t) (halfOf t) := by
  unfold halfSum; rw [pay4_eq]; funext _
  exact Finset.sum_congr rfl fun r _ => congrArg minOver (funext fun mm => dBlk_at m c t r mm)

/-- A half's column minima. -/
theorem halfMin_eq (c : Dev nD) (t : Fin cfg0.N) :
    halfMin m c t = fun j => colMin (X m c) (Y m c) (cloudOf t) (halfOf t) (j 1) := by
  unfold halfMin; rw [pay5_eq]; funext j
  exact congrArg minOver (funext fun r => dBlk_at m c t r (j 1))

theorem cloudOf_odd (b : Fin 4) : cloudOf (oddPt b) = b := Fin.ext (by have := b.isLt; show (2 * b.val + 1) / 2 = b.val; omega)
theorem halfOf_odd (b : Fin 4) : halfOf (oddPt b) = 1 := Fin.ext (by show (2 * b.val + 1) % 2 = 1; omega)
theorem cloudOf_prev_odd (b : Fin 4) : cloudOf (prevPt (oddPt b)) = b := Fin.ext (by have := b.isLt; show (2 * b.val + 1 - 1) / 2 = b.val; omega)
theorem halfOf_prev_odd (b : Fin 4) : halfOf (prevPt (oddPt b)) = 0 := Fin.ext (by show (2 * b.val + 1 - 1) % 2 = 0; omega)
theorem odd_not_even (b : Fin 4) : ¬(oddPt b).val % 2 = 0 := by show ¬(2 * b.val + 1) % 2 = 0; omega

/-- Row b of the first result column: the two halves' sums of row minima. -/
theorem G4_apply (c : Dev nD) (b : Fin 4) :
    G4 m c (ix3 b (0 : Fin 1) (0 : Fin 1)) = rowSum (X m c) (Y m c) b 0 + rowSum (X m c) (Y m c) b 1 := by
  show cellAt m c (oddPt b) (ix3 0 0 0) = _
  rw [cellAt_odd m c (oddPt b) (odd_not_even b), pay6_eq, halfSum_eq]
  show rowSum (X m c) (Y m c) (cloudOf (prevPt (oddPt b))) (halfOf (prevPt (oddPt b))) + _ = _
  rw [cloudOf_prev_odd, halfOf_prev_odd]
  refine congrArg (_ + ·) ?_
  have := congrFun (halfSum_eq m c (oddPt b)) (ix3 0 0 0)
  rw [cloudOf_odd, halfOf_odd] at this
  rw [← this]; unfold halfSum; rw [pay4_eq]

/-- Row b of the second result column: the sum over the columns of the two halves' column minima joined. -/
theorem G5_apply (c : Dev nD) (b : Fin 4) :
    G5 m c (ix3 b (0 : Fin 1) (0 : Fin 1)) = ∑ mm : Fin 4096, min (colMin (X m c) (Y m c) b 0 mm) (colMin (X m c) (Y m c) b 1 mm) := by
  show cell2At m c (oddPt b) (ix3 0 0 0) = _
  unfold cell2At
  rw [pay8_eq]
  refine Finset.sum_congr rfl fun mm _ => ?_
  rw [rowAt_odd m c (oddPt b) (odd_not_even b), pay7_eq, halfMin_eq]
  show min (colMin (X m c) (Y m c) (cloudOf (prevPt (oddPt b))) (halfOf (prevPt (oddPt b))) mm) _ = _
  rw [cloudOf_prev_odd, halfOf_prev_odd]
  refine congrArg (min _ ·) ?_
  have := congrFun (halfMin_eq m c (oddPt b)) (ix2 0 mm)
  rw [cloudOf_odd, halfOf_odd] at this
  rw [← this]; unfold halfMin; rw [pay5_eq]

/-- The kernel program's result: the blocked chamfer loss. -/
theorem kernel_loss (c : Dev nD) : tailOf (G4 m c) (G5 m c) = fun _ => lossK (X m c) (Y m c) := by
  rw [tailOf_eq]; funext _
  unfold lossK
  simp only [G4_apply, G5_apply]

end Cert.KernelIdeal.Body

end
-- ==== Proof.RefSide.lean ====
/-
  The reference's result read at an index: the plain chamfer loss of the specification.
-/
import proofs.«149844_g4922032521243_cont_8to1_c_580_16_alg».proof.Proof.Gen.ReferenceIdeal.Read
import proofs.«149844_g4922032521243_cont_8to1_c_580_16_alg».proof.Proof.Spec
import Idealize.ShloMosaic.Lib.ValueIdx
import Idealize.ShloMosaic.PureOps.Ideal
import Idealize.ShloMosaic.PureOps.Ideal.Laws
import Idealize.ShloMosaic.PureOps.Reduce

noncomputable section

namespace Cert.RefSide

open Cert.ReferenceIdeal Cert.ReferenceIdeal.Gen Idealize.ShloMosaic Idealize.ShloMosaic.ValueIdx

/-- The two clouds as the reference's arguments. -/
abbrev Arg : Type := (⟨S4x4096x3, .f32⟩ : BufTy).Contents (Elt Ideal)

/-- Coordinate `k` of point `n` of the first cloud, reached through the two broadcasts and the reduced axis. -/
theorem idx_left (b : Fin 4) (n m : Fin 4096) (k : Fin 3) :
    Read.idx_main_v0 (Read.idx_main_v2 (Read.idx_main_v6 (ix3 b n m) k)) = ix3 b n k :=
  funext fun a => Fin.ext (by match a with | ⟨0, _⟩ => rfl | ⟨1, _⟩ => rfl | ⟨2, _⟩ => rfl)

/-- Coordinate `k` of point `m` of the second cloud, likewise. -/
theorem idx_right (b : Fin 4) (n m : Fin 4096) (k : Fin 3) :
    Read.idx_main_v1 (Read.idx_main_v3 (Read.idx_main_v6 (ix3 b n m) k)) = ix3 b m k :=
  funext fun a => Fin.ext (by match a with | ⟨0, _⟩ => rfl | ⟨1, _⟩ => rfl | ⟨2, _⟩ => rfl)

/-- The table of squared distances: entry (b, n, m) is the sum over the coordinates of the squared difference. -/
theorem sqd_at (x y : Arg) (b : Fin 4) (n m : Fin 4096) :
    Read.val_main_v6 (F := Ideal) x y (ix3 b n m) = Cert.Chamfer.sqd x y b n m := by
  rw [Read.val_main_v6_apply, Read.val_main_cst_apply]
  simp only [Read.val_main_v5_apply, Read.val_main_v4_apply, Read.val_main_v2_apply, Read.val_main_v3_apply,
    Read.val_main_v0_apply, Read.val_main_v1_apply, idx_left, idx_right, Ideal.ofBits_def, Ideal.ofBits_zero_f32,
    zero_add, Ideal.subf_def, Ideal.mulf_def]
  rfl

/-- Dropping the third axis: the squared-distance table loses its column coordinate. -/
theorem reduces_col : S4x4096x4096.Reduces [2] S4x4096 := by decide

/-- Dropping the second axis: the squared-distance table loses its row coordinate. -/
theorem reduces_row : S4x4096x4096.Reduces [1] S4x4096 := by decide

/-- Entry (b, n) with column `m` put back on the third axis is (b, n, m). -/
theorem lift_col (b : Fin 4) (n : Fin 4096) (m : Fin (S4x4096x4096.size 2)) :
    reduces_col.lift (ix2 b n) m = ix3 b n (⟨m.val, m.isLt⟩ : Fin 4096) := by
  funext c; apply Fin.ext
  fin_cases c <;> rfl

/-- Entry (b, m) with row `n` put back on the second axis is (b, n, m). -/
theorem lift_row (b : Fin 4) (m : Fin 4096) (n : Fin (S4x4096x4096.size 1)) :
    reduces_row.lift (ix2 b m) n = ix3 b (⟨n.val, n.isLt⟩ : Fin 4096) m := by
  funext c; apply Fin.ext
  fin_cases c <;> rfl

/-- The host's minimum over the third axis, at (b, n), is the fold of `min` from the initial value over the columns. -/
theorem hostMin_col (z : S4x4096x4096.Idx → EReal) (init : S_.Idx → EReal) (b : Fin 4) (n : Fin 4096) :
    Host.reduce (FloatOps.minimumf (F := Ideal) (φ := .f32)) z init reducesTo_S4x4096x4096_S4x4096_d2 h_S_ (ix2 b n)
      = Finset.fold min (init (Shape.Idx.first h_S_)) (fun m : Fin 4096 => z (ix3 b n m)) Finset.univ := by
  refine (Host.reduce_eq_fold_single (α := Ideal .f32) (s := S4x4096x4096) (t := S4x4096) (a := (2 : Fin 3)) (u := S_)
    (FloatOps.minimumf (F := Ideal) (φ := .f32)) z init reducesTo_S4x4096x4096_S4x4096_d2 reduces_col h_S_ (ix2 b n)).trans ?_
  have hf : (z ∘ reduces_col.lift (ix2 b n)) = fun m : Fin 4096 => z (ix3 b n m) :=
    funext fun m => congrArg z (lift_col b n m)
  exact congrArg (fun f => Finset.fold min (init (Shape.Idx.first h_S_)) f (Finset.univ : Finset (Fin 4096))) hf

/-- The host's minimum over the second axis, at (b, m), is the fold of `min` from the initial value over the rows. -/
theorem hostMin_row (z : S4x4096x4096.Idx → EReal) (init : S_.Idx → EReal) (b : Fin 4) (m : Fin 4096) :
    Host.reduce (FloatOps.minimumf (F := Ideal) (φ := .f32)) z init reducesTo_S4x4096x4096_S4x4096_d1 h_S_ (ix2 b m)
      = Finset.fold min (init (Shape.Idx.first h_S_)) (fun n : Fin 4096 => z (ix3 b n m)) Finset.univ := by
  refine (Host.reduce_eq_fold_single (α := Ideal .f32) (s := S4x4096x4096) (t := S4x4096) (a := (1 : Fin 3)) (u := S_)
    (FloatOps.minimumf (F := Ideal) (φ := .f32)) z init reducesTo_S4x4096x4096_S4x4096_d1 reduces_row h_S_ (ix2 b m)).trans ?_
  have hf : (z ∘ reduces_row.lift (ix2 b m)) = fun n : Fin 4096 => z (ix3 b n m) :=
    funext fun n => congrArg z (lift_row b m n)
  exact congrArg (fun f => Finset.fold min (init (Shape.Idx.first h_S_)) f (Finset.univ : Finset (Fin 4096))) hf

/-- Each point of the first cloud takes its smallest squared distance to the second cloud. -/
theorem rowMin_at (x y : Arg) (b : Fin 4) (n : Fin 4096) :
    Read.val_main_v7 (F := Ideal) x y (ix2 b n) = Cert.Chamfer.minOver fun m : Fin 4096 => Cert.Chamfer.sqd x y b n m := by
  unfold Read.val_main_v7
  refine (hostMin_col (Read.val_main_v6 (F := Ideal) x y) (Read.val_main_cst_0 (F := Ideal)) b n).trans ?_
  have hf : (fun m : Fin 4096 => Read.val_main_v6 (F := Ideal) x y (ix3 b n m))
      = fun m : Fin 4096 => Cert.Chamfer.sqd x y b n m := funext fun m => sqd_at x y b n m
  rw [hf]
  rfl

/-- Each point of the second cloud takes its smallest squared distance to the first cloud. -/
theorem colMin_at (x y : Arg) (b : Fin 4) (m : Fin 4096) :
    Read.val_main_v8 (F := Ideal) x y (ix2 b m) = Cert.Chamfer.minOver fun n : Fin 4096 => Cert.Chamfer.sqd x y b n m := by
  unfold Read.val_main_v8
  refine (hostMin_row (Read.val_main_v6 (F := Ideal) x y) (Read.val_main_cst_1 (F := Ideal)) b m).trans ?_
  have hf : (fun n : Fin 4096 => Read.val_main_v6 (F := Ideal) x y (ix3 b n m))
      = fun n : Fin 4096 => Cert.Chamfer.sqd x y b n m := funext fun n => sqd_at x y b n m
  rw [hf]
  rfl

/-- The sum over all points of the first cloud of their smallest squared distances, cloud by cloud. -/
theorem sum_rowMin (x y : Arg) :
    ∑ j : S4x4096.Idx, Read.val_main_v7 (F := Ideal) x y j
      = ∑ b : Fin 4, ∑ n : Fin 4096, Cert.Chamfer.minOver fun m : Fin 4096 => Cert.Chamfer.sqd x y b n m := by
  rw [sum_idx2]
  exact Finset.sum_congr rfl fun b _ => Finset.sum_congr rfl fun n _ => rowMin_at x y b n

/-- The sum over all points of the second cloud of their smallest squared distances, cloud by cloud. -/
theorem sum_colMin (x y : Arg) :
    ∑ j : S4x4096.Idx, Read.val_main_v8 (F := Ideal) x y j
      = ∑ b : Fin 4, ∑ m : Fin 4096, Cert.Chamfer.minOver fun n : Fin 4096 => Cert.Chamfer.sqd x y b n m := by
  rw [sum_idx2]
  exact Finset.sum_congr rfl fun b _ => Finset.sum_congr rfl fun m _ => colMin_at x y b m

/-- The reference computes the textbook chamfer loss. -/
theorem ref_eq (x y : Arg) :
    Read.val_main_v13 (F := Ideal) x y = fun _ => Cert.Chamfer.loss x y := by
  funext i
  rw [Read.val_main_v13_apply, Read.val_main_v10_apply, Read.val_main_v12_apply, Read.val_main_v9_apply,
    Read.val_main_v11_apply, Read.val_main_cst_2_apply, Read.val_main_cst_4_apply, Read.val_main_cst_3_apply,
    Read.val_main_cst_5_apply, sum_rowMin, sum_colMin]
  simp only [Ideal.ofBits_def, Ideal.ofBits_zero_f32, zero_add, Ideal.hostDivf_def, Ideal.addf_def]
  rfl

end Cert.RefSide

end
-- ==== Proof.FiniteIn.lean ====
/-
  From the printed precondition to its meaning: every coordinate of both clouds is a real number.
-/
import proofs.«149844_g4922032521243_cont_8to1_c_580_16_alg».proof.Pre_finite_inputs
import proofs.«149844_g4922032521243_cont_8to1_c_580_16_alg».proof.Proof.Spec
import Idealize.ShloMosaic.Lib.ReduceAll
import Idealize.ShloMosaic.Lib.ValueIdx
import Idealize.ShloMosaic.PureOps.Ideal
import Idealize.ShloMosaic.PureOps.Ideal.Laws

noncomputable section

namespace Cert.FiniteIn

open Idealize.ShloMosaic Idealize.ShloMosaic.ValueIdx

/-- The scalar shape has one index. -/
instance : Subsingleton Cert.Pre_finite_inputs.S_.Idx := ⟨fun _ _ => funext fun d => d.elim0⟩

/-- An extended real whose absolute value compares below +∞ is neither infinity. -/
theorem finite_of_abs_lt (v : EReal)
    (h : Ideal.cmp .olt (max v (-v)) (Ideal.ofBits .f32 0x7F800000#32) = 1#1) : v ≠ ⊤ ∧ v ≠ ⊥ := by
  have htop : Ideal.ofBits .f32 0x7F800000#32 = (⊤ : EReal) := by simp [Ideal.ofBits, Ideal.ieee]
  rw [htop] at h
  induction v using EReal.rec with
  | bot => exact absurd h (by simp [Ideal.cmp])
  | coe r => exact ⟨EReal.coe_ne_top r, EReal.coe_ne_bot r⟩
  | top => exact absurd h (by simp [Ideal.cmp])

/-- An array all of whose absolute values compare below +∞, as the printed `jnp.all` says, has only real entries. -/
theorem finite_of_all [Cert.Pre_finite_inputs.Facts] (x : FVec Ideal Cert.Pre_finite_inputs.S4x4096x3 .f32)
    (init : IVec Cert.Pre_finite_inputs.S_ 1)
    (e : Host.reduce IntOp.andi
        (cmpf .olt (Host.absf x)
          (broadcastInDim Cert.Pre_finite_inputs.S4x4096x3 ![] Cert.Pre_finite_inputs.Facts.bcast_S_S4x4096x3
            (constant (F := Ideal) Cert.Pre_finite_inputs.S_ .f32 0x7F800000#32)))
        init Cert.Pre_finite_inputs.Facts.reducesTo_S4x4096x3_S_d0_1_2 Cert.Pre_finite_inputs.Facts.h_S_ ix0 = 1#1) :
    Cert.Chamfer.Finite x := by
  intro i
  have hi := Host.reduce_andi_all _ init Cert.Pre_finite_inputs.Facts.reducesTo_S4x4096x3_S_d0_1_2
    Cert.Pre_finite_inputs.Facts.h_S_ ix0 e i
  exact finite_of_abs_lt (x i) hi

/-- The precondition says that both clouds have only real coordinates. -/
theorem finite_of_pre [Cert.Pre_finite_inputs.Facts] (x y : FVec Ideal Cert.Pre_finite_inputs.S4x4096x3 .f32)
    (h : Cert.Pre_finite_inputs.fn (F := Ideal) x y = fun _ => 1#1) :
    Cert.Chamfer.Finite x ∧ Cert.Chamfer.Finite y := by
  have h0 := congrFun h ix0
  dsimp only [Cert.Pre_finite_inputs.fn] at h0
  obtain ⟨hx, hy⟩ := IntOp.andi_eq_one.1 h0
  exact ⟨finite_of_all x _ hx, finite_of_all y _ hy⟩

end Cert.FiniteIn

end
-- ==== Proof.Algebra.lean ====
/-
  The blocked chamfer loss equals the textbook chamfer loss when every coordinate is a real number.

  Three facts carry the proof.  For real coordinates the expanded squared distance
  −2·⟨x,y⟩ + |x|² + |y|² is the sum of the squared differences (an identity of real numbers, read through
  the coercion into the extended reals).  A minimum folded from +∞ over the 4096 rows is the minimum of the
  minima over the two halves of 2048 rows, and a sum over the 4096 rows is the sum of the sums over the two
  halves.  Division by the real 16384 is the product with 1/16384 on every extended real.
-/
import proofs.«149844_g4922032521243_cont_8to1_c_580_16_alg».proof.Proof.Spec
import Idealize.ShloMosaic.Lib.ValueIdx
import Idealize.ShloMosaic.PureOps.Ideal

noncomputable section

namespace Cert.Chamfer

open Idealize.ShloMosaic Idealize.ShloMosaic.ValueIdx

/-! ## The four constants -/

/-- The pattern 0x7F800000 is +∞. -/
theorem pinf_eq_top : pinf = ⊤ := by simp [pinf, Ideal.ofBits, Ideal.ieee]

/-- The pattern 0xC0000000 is the real −2. -/
theorem ofBits_neg_two : Ideal.ofBits .f32 0xC0000000#32 = ((-2 : ℝ) : EReal) := by
  simp [Ideal.ofBits, Ideal.ieee, -EReal.coe_mul, -EReal.coe_neg]; norm_num

/-- The pattern 0x38800000 is the real 2⁻¹⁴ = 1/16384. -/
theorem ofBits_inv_16384 : Ideal.ofBits .f32 0x38800000#32 = ((1 / 16384 : ℝ) : EReal) := by
  simp [Ideal.ofBits, Ideal.ieee, -EReal.coe_mul]; norm_num

/-- The pattern 0x46800000 is the real 2¹⁴ = 16384. -/
theorem ofBits_16384 : Ideal.ofBits .f32 0x46800000#32 = ((16384 : ℝ) : EReal) := by
  simp [Ideal.ofBits, Ideal.ieee, -EReal.coe_mul]; norm_num

/-! ## A minimum folded from +∞ is the infimum -/

/-- The fold of `min` from +∞ is the infimum of the family. -/
theorem minOver_eq_inf {n : ℕ} (f : Fin n → EReal) : minOver f = Finset.univ.inf f := by
  unfold minOver
  rw [pinf_eq_top]
  rfl

/-- Every member of the family is at least the minimum. -/
theorem minOver_le {n : ℕ} (f : Fin n → EReal) (i : Fin n) : minOver f ≤ f i := by
  rw [minOver_eq_inf]; exact Finset.inf_le (Finset.mem_univ i)

/-- A lower bound of every member is a lower bound of the minimum. -/
theorem le_minOver {n : ℕ} (f : Fin n → EReal) (a : EReal) (h : ∀ i, a ≤ f i) : a ≤ minOver f := by
  rw [minOver_eq_inf]; exact Finset.le_inf fun i _ => h i

/-! ## The 4096 rows are the two halves of 2048 rows -/

/-- Every row is row `r` of half `i` for some `i` and `r`. -/
theorem exists_row (n : Fin 4096) : ∃ (i : Fin 2) (r : Fin 2048), n = row i r := by
  refine ⟨⟨n.val / 2048, by omega⟩, ⟨n.val % 2048, by omega⟩, ?_⟩
  apply Fin.ext
  simp only [row]
  omega

/-- The two halves, as an equivalence of the pairs (half, row in the half) with the rows. -/
def rowEquiv : Fin 2 × Fin 2048 ≃ Fin 4096 where
  toFun p := row p.1 p.2
  invFun n := (⟨n.val / 2048, by omega⟩, ⟨n.val % 2048, by omega⟩)
  left_inv p := by
    rcases p with ⟨i, r⟩
    apply Prod.ext
    · apply Fin.ext; simp only [row]; omega
    · apply Fin.ext; simp only [row]; omega
  right_inv n := by
    apply Fin.ext
    simp only [row]
    omega

/-- The minimum over the 4096 rows is the minimum of the minima over the two halves. -/
theorem minOver_split (g : Fin 4096 → EReal) :
    minOver g = min (minOver fun r : Fin 2048 => g (row 0 r)) (minOver fun r : Fin 2048 => g (row 1 r)) := by
  apply le_antisymm
  · exact le_min (le_minOver _ _ fun r => minOver_le g (row 0 r)) (le_minOver _ _ fun r => minOver_le g (row 1 r))
  · refine le_minOver _ _ fun n => ?_
    obtain ⟨i, r, rfl⟩ := exists_row n
    fin_cases i
    · exact (min_le_left _ _).trans (minOver_le (fun r : Fin 2048 => g (row 0 r)) r)
    · exact (min_le_right _ _).trans (minOver_le (fun r : Fin 2048 => g (row 1 r)) r)

/-- The sum over the 4096 rows is the sum over the first half plus the sum over the second half. -/
theorem sum_split (g : Fin 4096 → EReal) :
    ∑ n : Fin 4096, g n = (∑ r : Fin 2048, g (row 0 r)) + ∑ r : Fin 2048, g (row 1 r) := by
  rw [← Equiv.sum_comp rowEquiv g, Fintype.sum_prod_type, Fin.sum_univ_two]
  rfl

/-! ## The expanded squared distance -/

/-- For real coordinates the expanded squared distance is the sum of the squared differences. -/
theorem sqdK_eq_sqd (x y : Pts.Idx → EReal) (hx : Finite x) (hy : Finite y) (b : Fin 4) (n m : Fin 4096) :
    sqdK x y b n m = sqd x y b n m := by
  have ha : ∀ k : Fin 3, x (ix3 b n k) = (((x (ix3 b n k)).toReal : ℝ) : EReal) :=
    fun k => (EReal.coe_toReal (hx _).1 (hx _).2).symm
  have hc : ∀ k : Fin 3, y (ix3 b m k) = (((y (ix3 b m k)).toReal : ℝ) : EReal) :=
    fun k => (EReal.coe_toReal (hy _).1 (hy _).2).symm
  unfold sqdK sqd
  rw [ofBits_neg_two]
  simp only [Fin.sum_univ_three]
  rw [ha 0, ha 1, ha 2, hc 0, hc 1, hc 2]
  generalize (x (ix3 b n 0)).toReal = a0
  generalize (x (ix3 b n 1)).toReal = a1
  generalize (x (ix3 b n 2)).toReal = a2
  generalize (y (ix3 b m 0)).toReal = c0
  generalize (y (ix3 b m 1)).toReal = c1
  generalize (y (ix3 b m 2)).toReal = c2
  simp only [← EReal.coe_mul, ← EReal.coe_add, ← EReal.coe_sub]
  rw [EReal.coe_eq_coe_iff]
  ring

/-! ## The two losses -/

/-- The blocked chamfer loss is the textbook chamfer loss on clouds of real coordinates. -/
theorem lossK_eq_loss (x y : Pts.Idx → EReal) (hx : Finite x) (hy : Finite y) : lossK x y = loss x y := by
  have hK : ∀ b n m, sqdK x y b n m = sqd x y b n m := sqdK_eq_sqd x y hx hy
  have hrow : ∀ b : Fin 4, rowSum x y b 0 + rowSum x y b 1 = ∑ n : Fin 4096, minOver fun m : Fin 4096 => sqd x y b n m := by
    intro b
    simp only [rowSum, hK]
    exact (sum_split fun n => minOver fun m : Fin 4096 => sqd x y b n m).symm
  have hcol : ∀ (b : Fin 4) (m : Fin 4096),
      min (colMin x y b 0 m) (colMin x y b 1 m) = minOver fun n : Fin 4096 => sqd x y b n m := by
    intro b m
    simp only [colMin, hK]
    exact (minOver_split fun n => sqd x y b n m).symm
  unfold lossK loss
  rw [ofBits_inv_16384, ofBits_16384, Ideal.div_coe (by norm_num), Ideal.div_coe (by norm_num)]
  simp only [hrow, hcol]

end Cert.Chamfer

end
-- ==== Proof.lean ====
/-
  The chamfer distance of two batches of point clouds: a blocked kernel against the textbook reference.

  Both programs take x, y : [4, 4096, 3] and return one number.  The reference forms every squared distance
  ∑ₖ (x[b,n,k] − y[b,m,k])², takes each point's minimum over the other cloud, and adds the mean over the points of x to
  the mean over the points of y.  The kernel expands the square as −2·⟨x,y⟩ + |x|² + |y|², walks the rows of x in two
  halves of 2048 per cloud, keeps a running sum of row minima and running column minima between the halves, and
  replaces the two divisions by 16384 with products by 2⁻¹⁴.

  Over the extended reals sums and minima may be regrouped freely and 2⁻¹⁴ is exactly 1/16384; the one law that
  needs the inputs to be real numbers is the expansion of the square, and the precondition gives exactly that.
  Hence: each program's frame from its own run; nothing to preserve (the idealization rewrote no operation); and the
  two results equal, the kernel's read as the blocked loss, the reference's as the textbook loss.
-/
import proofs.«149844_g4922032521243_cont_8to1_c_580_16_alg».proof.Defs
import proofs.«149844_g4922032521243_cont_8to1_c_580_16_alg».proof.Proof.Gen.Kernel
import proofs.«149844_g4922032521243_cont_8to1_c_580_16_alg».proof.Proof.Gen.KernelIdeal
import proofs.«149844_g4922032521243_cont_8to1_c_580_16_alg».proof.Proof.Gen.ReferenceIdeal
import proofs.«149844_g4922032521243_cont_8to1_c_580_16_alg».proof.Proof.Gen.ReferenceIdeal.Run
import proofs.«149844_g4922032521243_cont_8to1_c_580_16_alg».proof.Proof.Gen.ReferenceIdeal.Read
import proofs.«149844_g4922032521243_cont_8to1_c_580_16_alg».proof.Proof.Gen.Pre_finite_inputs
import proofs.«149844_g4922032521243_cont_8to1_c_580_16_alg».proof.Proof.WordFrame
import proofs.«149844_g4922032521243_cont_8to1_c_580_16_alg».proof.Proof.IdealLoss
import proofs.«149844_g4922032521243_cont_8to1_c_580_16_alg».proof.Proof.RefSide
import proofs.«149844_g4922032521243_cont_8to1_c_580_16_alg».proof.Proof.FiniteIn
import proofs.«149844_g4922032521243_cont_8to1_c_580_16_alg».proof.Proof.Algebra
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as they were. -/
theorem frame_k [Cert.Kernel.Facts] [Cert.Pre_finite_inputs.Facts] : Cert.frame_Kernel :=
  fun m ρ _ => Cert.Kernel.Body.frame m ρ

/-- So does the idealized kernel. -/
theorem frame_ki [Cert.KernelIdeal.Facts] [Cert.Pre_finite_inputs.Facts] : Cert.frame_KernelIdeal :=
  fun m ρ _ => Cert.KernelIdeal.Body.frame m ρ

/-- And the reference: its run with the result dropped. -/
theorem frame_ri [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.Value.run (F := Ideal) m ρ)

/-- Over the extended reals the kernel returns the blocked chamfer loss of its arguments and the reference the textbook
    one; for real coordinates the two are one number. -/
theorem algebraic [Cert.KernelIdeal.Facts] [Cert.ReferenceIdeal.Facts] [Cert.Pre_finite_inputs.Facts] :
    Cert.algebraic_KernelIdeal_ReferenceIdeal := by
  intro m ρ m' ρ' hpre hagree
  refine ⟨fun c => fun _ => Cert.Chamfer.lossK (m ((c.tc : Thread Cert.KernelIdeal.nD Cert.KernelIdeal.τ).loc Cert.KernelIdeal.main_arg0)) (m ((c.tc : Thread Cert.KernelIdeal.nD Cert.KernelIdeal.τ).loc Cert.KernelIdeal.main_arg1)), ?_, ?_⟩
  · exact (θ_run Cert.KernelIdeal.defs _ _).mono (fun r h c => ⟨(h c).1.trans (Cert.KernelIdeal.Body.kernel_loss m c), (h c).2⟩)
      (Cert.KernelIdeal.Body.run_value m ρ)
  · refine (θ_run Cert.ReferenceIdeal.defs _ _).mono (fun _ h c => ⟨?_, (h c).2⟩) (Cert.ReferenceIdeal.Value.run (F := Ideal) m' ρ')
    obtain ⟨hx, hy⟩ := Cert.FiniteIn.finite_of_pre _ _ (hpre c)
    rw [(h c).1, Cert.ReferenceIdeal.Read.val_main_v13_eq, Cert.RefSide.ref_eq, (hagree c).1, (hagree c).2]
    funext _
    exact (Cert.Chamfer.lossK_eq_loss _ _ hx hy).symm

theorem claim : Cert.Claim :=
  ⟨Cert.Kernel.Gen.facts, Cert.KernelIdeal.Gen.facts, Cert.ReferenceIdeal.Gen.facts, Cert.Pre_finite_inputs.Gen.facts,
    @frame_k Cert.Kernel.Gen.facts Cert.Pre_finite_inputs.Gen.facts,
    @frame_ki Cert.KernelIdeal.Gen.facts Cert.Pre_finite_inputs.Gen.facts,
    @frame_ri Cert.ReferenceIdeal.Gen.facts Cert.Pre_finite_inputs.Gen.facts,
    trivial,
    @algebraic Cert.KernelIdeal.Gen.facts Cert.ReferenceIdeal.Gen.facts Cert.Pre_finite_inputs.Gen.facts⟩

end Cert.Proof

end
